-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8192x128 .f32) (main_arg1 : FVec F S8192x8192 .f32) (main_arg2 : FVec F S128x128 .f32) (main_arg3 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S1x128 : Shape := ⟨2, ![1, 128]⟩
abbrev S512x4096 : Shape := ⟨2, ![512, 4096]⟩
abbrev S512x128 : Shape := ⟨2, ![512, 128]⟩
abbrev S4096x128 : Shape := ⟨2, ![4096, 128]⟩

abbrev nBuf : Space → Nat
  | .hbm => 6
  | .vmem => 9
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S8192x128, .f32⟩
  | .local _ .vmem, ⟨0, _⟩ => ⟨S8192x128, .f32⟩
  | .local _ .vmem, ⟨1, _⟩ => ⟨S128x128, .f32⟩
  | .local _ .vmem, ⟨2, _⟩ => ⟨S1x128, .f32⟩
  | .local _ .vmem, ⟨3, _⟩ => ⟨S512x4096, .f32⟩
  | .local _ .vmem, ⟨4, _⟩ => ⟨S512x4096, .f32⟩
  | .local _ .vmem, ⟨5, _⟩ => ⟨S512x128, .f32⟩
  | .local _ .vmem, ⟨6, _⟩ => ⟨S512x128, .f32⟩
  | .local _ .vmem, ⟨7, _⟩ => ⟨S8192x128, .f32⟩
  | .local _ .vmem, ⟨8, _⟩ => ⟨S512x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c4096_i32_8 : BitVec 32 := 4096#32
  let v17 : BitVec 32 := Scalar.muli arg1 c4096_i32_8
  let v18 : Index := Scalar.indexCast v17
  let c0_9 : Index := 0#32
  ![v18.toNat, 0]
def k0_off2 (i : grid0.Coords) : Fin 2 → Nat :=
  let arg1 : BitVec 32 := BitVec.ofNat 32 (i 1).val
  let c4096_i32 : BitVec 32 := 4096#32
  let v4 : BitVec 32 := Scalar.muli arg1 c4096_i32
  let v5 : Index := Scalar.indexCast v4
  let c0_2 : Index := 0#32
  ![v5.toNat, 0]
def k0_cond4 (i : grid0.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_7 : BitVec 32 := 0#32
  let v16 : BitVec 1 := Scalar.cmpi .ne v15 c0_i32_7
  v16

def k0_off3 (i : grid0.Coords) : Fin 2 → Nat :=
  let arg0 : BitVec 32 := BitVec.ofNat 32 (i 0).val
  let c512_i32 : BitVec 32 := 512#32
  let v17 : BitVec 32 := Scalar.muli arg0 c512_i32
  let v18 : Index := Scalar.indexCast v17
  let c0_8 : Index := 0#32
  ![v18.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S128_S1x128 : S128.ShapeCasts S1x128
  h_S4096x128 : 0 < S4096x128.numel
  inb_S128x128_S128x128_0_0 : ∀ a, (![0, 0] : Fin 2 → Nat) a + S128x128.size a ≤ S128x128.size a
  h_S128x128 : 0 < S128x128.numel
  shapeCasts_S4096x128_S4096x128 : S4096x128.ShapeCasts S4096x128
  inb_S512x4096_S512x4096_0_0 : ∀ a, (![0, 0] : Fin 2 → Nat) a + S512x4096.size a ≤ S512x4096.size a
  h_S512x4096 : 0 < S512x4096.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  dot_S4096x128_S128x128_S4096x128_1_0_0_1_n_n_wf : DotDims.WF S4096x128 S128x128 S4096x128 [1] [0] [0] [1] [] []
  dot_S512x4096_S4096x128_S512x128_1_0_0_1_n_n_wf : DotDims.WF S512x4096 S4096x128 S512x128 [1] [0] [0] [1] [] []
  hrank0 : 0 < grid0.rank
  k0_off1_inb : ∀ i : grid0.Coords, ∀ (k0_h1 : k0_cond1 i = 1#1), ∀ a, (k0_off1 i) a + S4096x128.size a ≤ S8192x128.size a
  k0_off2_inb : ∀ i : grid0.Coords, ∀ a, (k0_off2 i) a + S4096x128.size a ≤ S8192x128.size a
  k0_off3_inb : ∀ i : grid0.Coords, ∀ (k0_h4 : k0_cond4 i = 1#1), ∀ a, (k0_off3 i) a + S512x128.size a ≤ S8192x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S8192x8192.size a
  hwx0_3 : ∀ i : grid0.Coords, EltTy.bits .f32 = 32 ∨ (Rect.block (s := S8192x8192) S512x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S8192x128.size a
  hwx0_4 : ∀ i : grid0.Coords, EltTy.bits .f32 = 32 ∨ (Rect.block (s := S8192x128) S512x128.size (cc0_transform_4 i) (hinb0_4 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond4 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S1x128 : Shape := ⟨2, ![1, 128]⟩

abbrev nBuf : Space → Nat
  | .hbm => 11
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S8192x128, .f32⟩
  | .hbm, ⟨5, _⟩ => ⟨S8192x128, .f32⟩
  | .hbm, ⟨6, _⟩ => ⟨S1x128, .f32⟩
  | .hbm, ⟨7, _⟩ => ⟨S8192x128, .f32⟩
  | .hbm, ⟨8, _⟩ => ⟨S8192x128, .f32⟩
  | .hbm, ⟨9, _⟩ => ⟨S8192x128, .f32⟩
  | .hbm, ⟨10, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.K.Cases.lean ====
/-
  The grid of the graph-convolution kernel is 16 row blocks by 2 column halves, visited row-major: point t is
  row block t / 2 and half t % 2. Its body branches four times on the coordinates: "first row block" (the
  half's slice of the product x·W is computed and kept), "first half" (the running sum is started), "not the
  first half" (the running sum is added to) and "last half" (the output block is finished). This module decides
  those conditions, and the offsets the body computes from the coordinates, in closed form over the 32 points,
  says where the output window is idle and where its block is written back, and spells the region invariant
  with the two buffers the kernel keeps for itself as owned memrefs.
-/
import proofs.«106130_g44306882625938_cont_8to1_c_1080_8_alg».proof.Proof.Gen.Kernel.Frame
import proofs.«106130_g44306882625938_cont_8to1_c_1080_8_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The four branch conditions -/

/-- "This is the first row block": the branch that computes a slice of x·W. -/
abbrev firstRow (i : grid0.Coords) : Prop := k0_cond1 i = 1#1
/-- "This is the first half": the branch that starts the running sum. -/
abbrev firstHalf (i : grid0.Coords) : Prop :=
  (Scalar.cmpi .ne (Scalar.extui (Scalar.cmpi .eq (BitVec.ofNat 32 (i 1).val) 0#32)) 0#32) = 1#1
/-- "This is not the first half": the branch that adds to the running sum. -/
abbrev laterHalf (i : grid0.Coords) : Prop :=
  (Scalar.cmpi .ne (Scalar.extui (Scalar.cmpi .ne (BitVec.ofNat 32 (i 1).val) 0#32)) 0#32) = 1#1
/-- "This is the last half": the branch that finishes the output block. -/
abbrev lastHalf (i : grid0.Coords) : Prop := k0_cond4 i = 1#1

theorem firstRow_iff : ∀ t : Fin cfg0.N, firstRow (grid0.coords t) ↔ t.val < 2 :=
  (by decide +kernel : ∀ t : Fin grid0.N, firstRow (grid0.coords t) ↔ t.val < 2)
theorem firstHalf_iff : ∀ t : Fin cfg0.N, firstHalf (grid0.coords t) ↔ t.val % 2 = 0 :=
  (by decide +kernel : ∀ t : Fin grid0.N, firstHalf (grid0.coords t) ↔ t.val % 2 = 0)
theorem laterHalf_iff : ∀ t : Fin cfg0.N, laterHalf (grid0.coords t) ↔ t.val % 2 = 1 :=
  (by decide +kernel : ∀ t : Fin grid0.N, laterHalf (grid0.coords t) ↔ t.val % 2 = 1)
theorem lastHalf_iff : ∀ t : Fin cfg0.N, lastHalf (grid0.coords t) ↔ t.val % 2 = 1 :=
  (by decide +kernel : ∀ t : Fin grid0.N, lastHalf (grid0.coords t) ↔ t.val % 2 = 1)

/-! ## The offsets the body computes -/

/-- The rows of x the first-row branch multiplies, and the rows of the kept product it stores: half h starts at row 4096·h. -/
theorem off1_eq : ∀ t : Fin cfg0.N, k0_off1 (grid0.coords t) = ![4096 * (t.val % 2), 0] :=
  (by decide +kernel : ∀ t : Fin grid0.N, k0_off1 (grid0.coords t) = ![4096 * (t.val % 2), 0])
/-- The rows of the kept product every point reads back: the same. -/
theorem off2_eq : ∀ t : Fin cfg0.N, k0_off2 (grid0.coords t) = ![4096 * (t.val % 2), 0] :=
  (by decide +kernel : ∀ t : Fin grid0.N, k0_off2 (grid0.coords t) = ![4096 * (t.val % 2), 0])
/-- The rows of x the last-half branch adds: row block b starts at row 512·b. -/
theorem off3_eq : ∀ t : Fin cfg0.N, k0_off3 (grid0.coords t) = ![512 * (t.val / 2), 0] :=
  (by decide +kernel : ∀ t : Fin grid0.N, k0_off3 (grid0.coords t) = ![512 * (t.val / 2), 0])

/-! ## Where the output window is idle, and where its block goes back -/

theorem live_in0 : ∀ t : Fin cfg0.N, cfg0.idle 0 (grid0.coords t) = false := by decide +kernel
theorem live_in1 : ∀ t : Fin cfg0.N, cfg0.idle 1 (grid0.coords t) = false := by decide +kernel
theorem live_in2 : ∀ t : Fin cfg0.N, cfg0.idle 2 (grid0.coords t) = false := by decide +kernel
theorem live_in3 : ∀ t : Fin cfg0.N, cfg0.idle 3 (grid0.coords t) = false := by decide +kernel
/-- At a first-half point the body stores nothing into the output's buffer, -/
theorem idle_out : ∀ t : Fin cfg0.N, t.val % 2 = 0 → cfg0.idle 4 (grid0.coords t) = true := by decide +kernel
/-- and the block is not written back there; -/
theorem noFlush_out : ∀ t : Fin cfg0.N, t.val % 2 = 0 → (cfg0.win 4).flush t = false := by decide +kernel
/-- at a last-half point it stores the finished block. -/
theorem live_out : ∀ t : Fin cfg0.N, t.val % 2 = 1 → cfg0.idle 4 (grid0.coords t) = false := by decide +kernel

/-! ## The memrefs the body is called with -/

abbrev mX (t : Fin cfg0.N) : Memref sig .tc .vmem S8192x128 .f32 := win0_0.stage (cfg0.slots t 0)
abbrev hX (t : Fin cfg0.N) : (mX t).IsWhole := hstage0_0 ((cfg0.slots t 0).cast nbuf0_0)
abbrev mW (t : Fin cfg0.N) : Memref sig .tc .vmem S128x128 .f32 := win0_1.stage (cfg0.slots t 1)
abbrev hW (t : Fin cfg0.N) : (mW t).IsWhole := hstage0_1 ((cfg0.slots t 1).cast nbuf0_1)
abbrev mB (t : Fin cfg0.N) : Memref sig .tc .vmem S1x128 .f32 := win0_2.stage (cfg0.slots t 2)
abbrev hB (t : Fin cfg0.N) : (mB t).IsWhole := hstage0_2 ((cfg0.slots t 2).cast nbuf0_2)
abbrev mA (t : Fin cfg0.N) : Memref sig .tc .vmem S512x4096 .f32 := win0_3.stage (cfg0.slots t 3)
abbrev hA (t : Fin cfg0.N) : (mA t).IsWhole := hstage0_3 ((cfg0.slots t 3).cast nbuf0_3)
abbrev mO (t : Fin cfg0.N) : Memref sig .tc .vmem S512x128 .f32 := win0_4.stage (cfg0.slots t 4)
abbrev hO (t : Fin cfg0.N) : (mO t).IsWhole := hstage0_4 ((cfg0.slots t 4).cast nbuf0_4)
/-- The kept product x·W (8192 rows), -/
abbrev mS : Memref sig .tc .vmem S8192x128 .f32 := Memref.whole cc0_scratch0
/-- and the running sum of the row block in hand. -/
abbrev mAcc : Memref sig .tc .vmem S512x128 .f32 := Memref.whole cc0_scratch1

/-- The class invariant with the two kept buffers as memrefs owned at some contents. -/
theorem PhiA_eq (c : Dev nD) :
    (Pipeline.ΦA spec0 c : sProp 𝕄)
      = iprop(iprop((∃ d, owns (c : Thread nD τ) mS fullShare d) ∗ (∃ d, owns (c : Thread nD τ) mAcc fullShare d)) ∗ (∃ r, prngReg c r)) := by
  unfold Pipeline.ΦA; rw [scopedRest0_eq]; simp only [mS, mAcc, owns_whole]; try rfl

end Cert.Kernel.Body

end
-- ==== Proof.K.RunFirst.lean ====
/-
  The body at the very first point (first row block, first half). It multiplies rows 0..4095 of x by W and keeps the
  product in the first half of the 8192-row buffer, reads that half back, multiplies the point's 512×4096 block of
  the adjacency matrix by it and starts the running sum with the result. Nothing is stored into the output's buffer.
  The triple is a subtype: the stores the symbolic run meets, listed newest first, are its witness.
-/
import proofs.«106130_g44306882625938_cont_8to1_c_1080_8_alg».proof.Proof.K.Cases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- What the first point's stores leave in the kept product (over the contents `S` it found there) and in the running
    sum, with the proof that the body runs to its end holding the inputs, and the output's buffer `O`, as they were. -/
noncomputable def runFirst (c : Dev nD) (i : grid0.Coords)
    (arg2 : Memref sig .tc .vmem S8192x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S512x4096 .f32) (harg5 : arg5.IsWhole)
    (arg6 : Memref sig .tc .vmem S512x128 .f32) (harg6 : arg6.IsWhole) (arg7 : Memref sig .tc .vmem S8192x128 .f32) (harg7 : arg7.IsWhole)
    (arg8 : Memref sig .tc .vmem S512x128 .f32) (harg8 : arg8.IsWhole)
    (h1 : firstRow i) (h2 : firstHalf i) (h3 : ¬laterHalf i) (h4 : ¬lastHalf i)
    (X : Vec F S8192x128 .f32) (Wm : Vec F S128x128 .f32) (B : Vec F S1x128 .f32) (A : Vec F S512x4096 .f32)
    (S : Vec F S8192x128 .f32) (O : Vec F S512x128 .f32) :
    Σ' (LS : List (View.Piece (Elt F) S8192x128 .f32)), { LA : List (View.Piece (Elt F) S512x128 .f32) //
      ∀ (E : Set ℕ) (K : PUnit → sProp 𝕄),
        iprop(owns (c : Thread nD τ) arg2 fullShare X ∗ owns (c : Thread nD τ) arg3 fullShare Wm ∗ owns (c : Thread nD τ) arg4 fullShare B ∗ owns (c : Thread nD τ) arg5 fullShare A
            ∗ owns (c : Thread nD τ) arg6 fullShare O ∗ owns (c : Thread nD τ) arg7 fullShare S ∗ (∃ d, owns (c : Thread nD τ) arg8 fullShare d)
            ∗ (iprop(owns (c : Thread nD τ) arg2 fullShare X ∗ owns (c : Thread nD τ) arg3 fullShare Wm ∗ owns (c : Thread nD τ) arg4 fullShare B ∗ owns (c : Thread nD τ) arg5 fullShare A
                ∗ owns (c : Thread nD τ) arg6 fullShare O
                ∗ (arg7.view.loc (c : Thread nD τ) ↦[arg7.view.set]{fullShare} arg7.view.writes (Elt F) (harg7.unread S) LS)
                ∗ (∃ f, (arg8.view.loc (c : Thread nD τ) ↦[arg8.view.set]{fullShare} arg8.view.writes (Elt F) f LA))) -∗ K ⟨⟩))
          ⊢ wp frame (wpE (defs₀ (F := F)) Variants.none c none) E (cc0__gcn2d i arg2 harg2 arg3 harg3 arg4 harg4 arg5 harg5 arg6 harg6 arg7 harg7 arg8 harg8) K } := by
  refine ⟨?_, ?_, fun E K => ?run⟩
  case run =>
    simp only [cc0__gcn2d_eq_skeleton]; unfold cc0__gcn2d_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg2.eq_unread hf2; obtain rfl := harg3.eq_unread hf3; obtain rfl := harg4.eq_unread hf4
    obtain rfl := harg5.eq_unread hf5; obtain rfl := harg7.eq_unread hf7; obtain rfl := harg6.eq_unread hf6
    sl_exec (disch := first | exact h1 | exact h2 | exact h3 | exact h4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexact H7
    iexists _; iexact H8

end Cert.Kernel.Body

end
-- ==== Proof.K.RunSecond.lean ====
/-
  The body at the second point (first row block, last half). It multiplies rows 4096..8191 of x by W and keeps the
  product in the second half of the 8192-row buffer, reads that half back, multiplies the point's block of the
  adjacency matrix by it, adds the result to the running sum `Acc` the first point left, and finishes the output
  block: the sum plus the bias row plus the row block of x, through tanh.
-/
import proofs.«106130_g44306882625938_cont_8to1_c_1080_8_alg».proof.Proof.K.RunFirst

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- What the second point's stores leave in the kept product, in the output's buffer and in the running sum. -/
noncomputable def runSecond (c : Dev nD) (i : grid0.Coords)
    (arg2 : Memref sig .tc .vmem S8192x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S512x4096 .f32) (harg5 : arg5.IsWhole)
    (arg6 : Memref sig .tc .vmem S512x128 .f32) (harg6 : arg6.IsWhole) (arg7 : Memref sig .tc .vmem S8192x128 .f32) (harg7 : arg7.IsWhole)
    (arg8 : Memref sig .tc .vmem S512x128 .f32) (harg8 : arg8.IsWhole)
    (h1 : firstRow i) (h2 : ¬firstHalf i) (h3 : laterHalf i) (h4 : lastHalf i)
    (X : Vec F S8192x128 .f32) (Wm : Vec F S128x128 .f32) (B : Vec F S1x128 .f32) (A : Vec F S512x4096 .f32)
    (S : Vec F S8192x128 .f32) (Acc : Vec F S512x128 .f32) :
    Σ' (LS : List (View.Piece (Elt F) S8192x128 .f32)), Σ' (LO : List (View.Piece (Elt F) S512x128 .f32)), { LA : List (View.Piece (Elt F) S512x128 .f32) //
      ∀ (E : Set ℕ) (K : PUnit → sProp 𝕄),
        iprop(owns (c : Thread nD τ) arg2 fullShare X ∗ owns (c : Thread nD τ) arg3 fullShare Wm ∗ owns (c : Thread nD τ) arg4 fullShare B ∗ owns (c : Thread nD τ) arg5 fullShare A
            ∗ (∃ d, owns (c : Thread nD τ) arg6 fullShare d) ∗ owns (c : Thread nD τ) arg7 fullShare S ∗ owns (c : Thread nD τ) arg8 fullShare Acc
            ∗ (iprop(owns (c : Thread nD τ) arg2 fullShare X ∗ owns (c : Thread nD τ) arg3 fullShare Wm ∗ owns (c : Thread nD τ) arg4 fullShare B ∗ owns (c : Thread nD τ) arg5 fullShare A
                ∗ (∃ f, (arg6.view.loc (c : Thread nD τ) ↦[arg6.view.set]{fullShare} arg6.view.writes (Elt F) f LO))
                ∗ (arg7.view.loc (c : Thread nD τ) ↦[arg7.view.set]{fullShare} arg7.view.writes (Elt F) (harg7.unread S) LS)
                ∗ (∃ f, (arg8.view.loc (c : Thread nD τ) ↦[arg8.view.set]{fullShare} arg8.view.writes (Elt F) f LA))) -∗ K ⟨⟩))
          ⊢ wp frame (wpE (defs₀ (F := F)) Variants.none c none) E (cc0__gcn2d i arg2 harg2 arg3 harg3 arg4 harg4 arg5 harg5 arg6 harg6 arg7 harg7 arg8 harg8) K } := by
  refine ⟨?_, ?_, ?_, fun E K => ?run⟩
  case run =>
    simp only [cc0__gcn2d_eq_skeleton]; unfold cc0__gcn2d_skel
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg2.eq_unread hf2; obtain rfl := harg3.eq_unread hf3; obtain rfl := harg4.eq_unread hf4
    obtain rfl := harg5.eq_unread hf5; obtain rfl := harg7.eq_unread hf7; obtain rfl := harg8.eq_unread hf8
    sl_exec (disch := first | exact h1 | exact h2 | exact h3 | exact h4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexact H7
    iexists _; iexact H8

end Cert.Kernel.Body

end
-- ==== Proof.K.RunStart.lean ====
/-
  The body at the first half of a later row block. The kept product is only read: the point's block of the adjacency
  matrix times its first 4096 rows starts the running sum. Nothing is stored into the output's buffer or the product.
-/
import proofs.«106130_g44306882625938_cont_8to1_c_1080_8_alg».proof.Proof.K.RunSecond

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- What such a point's one store leaves in the running sum; the kept product `S` and the output's buffer `O` are handed back as found. -/
noncomputable def runStart (c : Dev nD) (i : grid0.Coords)
    (arg2 : Memref sig .tc .vmem S8192x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S512x4096 .f32) (harg5 : arg5.IsWhole)
    (arg6 : Memref sig .tc .vmem S512x128 .f32) (harg6 : arg6.IsWhole) (arg7 : Memref sig .tc .vmem S8192x128 .f32) (harg7 : arg7.IsWhole)
    (arg8 : Memref sig .tc .vmem S512x128 .f32) (harg8 : arg8.IsWhole)
    (h1 : ¬firstRow i) (h2 : firstHalf i) (h3 : ¬laterHalf i) (h4 : ¬lastHalf i)
    (X : Vec F S8192x128 .f32) (Wm : Vec F S128x128 .f32) (B : Vec F S1x128 .f32) (A : Vec F S512x4096 .f32)
    (S : Vec F S8192x128 .f32) (O : Vec F S512x128 .f32) :
    { LA : List (View.Piece (Elt F) S512x128 .f32) //
      ∀ (E : Set ℕ) (K : PUnit → sProp 𝕄),
        iprop(owns (c : Thread nD τ) arg2 fullShare X ∗ owns (c : Thread nD τ) arg3 fullShare Wm ∗ owns (c : Thread nD τ) arg4 fullShare B ∗ owns (c : Thread nD τ) arg5 fullShare A
            ∗ owns (c : Thread nD τ) arg6 fullShare O ∗ owns (c : Thread nD τ) arg7 fullShare S ∗ (∃ d, owns (c : Thread nD τ) arg8 fullShare d)
            ∗ (iprop(owns (c : Thread nD τ) arg2 fullShare X ∗ owns (c : Thread nD τ) arg3 fullShare Wm ∗ owns (c : Thread nD τ) arg4 fullShare B ∗ owns (c : Thread nD τ) arg5 fullShare A
                ∗ owns (c : Thread nD τ) arg6 fullShare O
                ∗ owns (c : Thread nD τ) arg7 fullShare S
                ∗ (∃ f, (arg8.view.loc (c : Thread nD τ) ↦[arg8.view.set]{fullShare} arg8.view.writes (Elt F) f LA))) -∗ K ⟨⟩))
          ⊢ wp frame (wpE (defs₀ (F := F)) Variants.none c none) E (cc0__gcn2d i arg2 harg2 arg3 harg3 arg4 harg4 arg5 harg5 arg6 harg6 arg7 harg7 arg8 harg8) K } := by
  refine ⟨?_, fun E K => ?run⟩
  case run =>
    simp only [cc0__gcn2d_eq_skeleton]; unfold cc0__gcn2d_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg2.eq_unread hf2; obtain rfl := harg3.eq_unread hf3; obtain rfl := harg4.eq_unread hf4
    obtain rfl := harg5.eq_unread hf5; obtain rfl := harg7.eq_unread hf7; obtain rfl := harg6.eq_unread hf6
    sl_exec (disch := first | exact h1 | exact h2 | exact h3 | exact h4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact H8

end Cert.Kernel.Body

end
-- ==== Proof.K.RunFinish.lean ====
/-
  The body at the last half of a later row block. The point's block of the adjacency matrix times the last 4096 rows
  of the kept product is added to the running sum `Acc`, and the output block is finished: the sum plus the bias row
  plus the row block of x, through tanh. The kept product is only read.
-/
import proofs.«106130_g44306882625938_cont_8to1_c_1080_8_alg».proof.Proof.K.RunStart

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- What such a point's stores leave in the output's buffer and in the running sum; the kept product `S` is handed back as found. -/
noncomputable def runFinish (c : Dev nD) (i : grid0.Coords)
    (arg2 : Memref sig .tc .vmem S8192x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S512x4096 .f32) (harg5 : arg5.IsWhole)
    (arg6 : Memref sig .tc .vmem S512x128 .f32) (harg6 : arg6.IsWhole) (arg7 : Memref sig .tc .vmem S8192x128 .f32) (harg7 : arg7.IsWhole)
    (arg8 : Memref sig .tc .vmem S512x128 .f32) (harg8 : arg8.IsWhole)
    (h1 : ¬firstRow i) (h2 : ¬firstHalf i) (h3 : laterHalf i) (h4 : lastHalf i)
    (X : Vec F S8192x128 .f32) (Wm : Vec F S128x128 .f32) (B : Vec F S1x128 .f32) (A : Vec F S512x4096 .f32)
    (S : Vec F S8192x128 .f32) (Acc : Vec F S512x128 .f32) :
    Σ' (LO : List (View.Piece (Elt F) S512x128 .f32)), { LA : List (View.Piece (Elt F) S512x128 .f32) //
      ∀ (E : Set ℕ) (K : PUnit → sProp 𝕄),
        iprop(owns (c : Thread nD τ) arg2 fullShare X ∗ owns (c : Thread nD τ) arg3 fullShare Wm ∗ owns (c : Thread nD τ) arg4 fullShare B ∗ owns (c : Thread nD τ) arg5 fullShare A
            ∗ (∃ d, owns (c : Thread nD τ) arg6 fullShare d) ∗ owns (c : Thread nD τ) arg7 fullShare S ∗ owns (c : Thread nD τ) arg8 fullShare Acc
            ∗ (iprop(owns (c : Thread nD τ) arg2 fullShare X ∗ owns (c : Thread nD τ) arg3 fullShare Wm ∗ owns (c : Thread nD τ) arg4 fullShare B ∗ owns (c : Thread nD τ) arg5 fullShare A
                ∗ (∃ f, (arg6.view.loc (c : Thread nD τ) ↦[arg6.view.set]{fullShare} arg6.view.writes (Elt F) f LO))
                ∗ owns (c : Thread nD τ) arg7 fullShare S
                ∗ (∃ f, (arg8.view.loc (c : Thread nD τ) ↦[arg8.view.set]{fullShare} arg8.view.writes (Elt F) f LA))) -∗ K ⟨⟩))
          ⊢ wp frame (wpE (defs₀ (F := F)) Variants.none c none) E (cc0__gcn2d i arg2 harg2 arg3 harg3 arg4 harg4 arg5 harg5 arg6 harg6 arg7 harg7 arg8 harg8) K } := by
  refine ⟨?_, ?_, fun E K => ?run⟩
  case run =>
    simp only [cc0__gcn2d_eq_skeleton]; unfold cc0__gcn2d_skel
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg2.eq_unread hf2; obtain rfl := harg3.eq_unread hf3; obtain rfl := harg4.eq_unread hf4
    obtain rfl := harg5.eq_unread hf5; obtain rfl := harg7.eq_unread hf7; obtain rfl := harg8.eq_unread hf8
    sl_exec (disch := first | exact h1 | exact h2 | exact h3 | exact h4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    iexists _; iexact H8

end Cert.Kernel.Body

end
-- ==== Proof.LibUnitRows.lean ====
/-
  Rows of a buffer after ONE store through a unit-stride rectangle, read back through another unit-stride rectangle:
  through the same offsets the read is the stored payload; through a rectangle that an axis keeps apart from the
  store's it is what the buffer held before; a store through the whole shape leaves its payload. Also the
  covered read (`View.readCov`) of a one-store list through the store's own offsets, and the congruence of a rectangle read in its
  offsets. All over any view, shape, element type and contents; the offsets may be any terms (closed or computed).
-/
import Idealize.ShloMosaic.Lib.WritesUnit
import Idealize.ShloMosaic.Lib.Pipeline.FrameBody
import Idealize.ShloMosaic.Lib.Pipeline.Value
import Idealize.ShloMosaic.Lib.Exec

noncomputable section

namespace Cert.UnitRows

open Idealize.ShloMosaic

variable {sig : RefSig} {κ : Kind} {sp : Space} {s : Shape} {e : EltTy} {Val : EltTy → Type}

/-- A rectangle read depends on the offsets only through their value. -/
theorem ld_unit_congr (Y : s.Idx → Val e) {off off' size : Fin s.rank → ℕ} (h : off = off')
    (inb : ∀ a, off a + size a ≤ s.size a) (inb' : ∀ a, off' a + size a ≤ s.size a) :
    View.ld Y (Rect.unit off size inb) = View.ld Y (Rect.unit off' size inb') := by
  subst h; rfl

/-- After one store through rows `off`, the same rows read the payload. -/
theorem ld_read_writes_same (v : View sig κ sp s e) (f : v.ty.Contents Val) {off size : Fin s.rank → ℕ}
    (inb inb' : ∀ a, off a + size a ≤ s.size a) (w : (Rect.unit off size inb).shape.Idx → Val e) :
    View.ld (v.read Val (v.writes Val f [(⟨Rect.unit off size inb, w⟩ : View.Piece Val s e)])) (Rect.unit off size inb') = w := by
  funext x
  exact View.read_writes_cons_unit_of_mem v f inb w [] ((Rect.unit off size inb').idx x) x rfl
    (fun a => by show off a + 1 * (x a).val = off a + (x a).val; rw [Nat.one_mul])

/-- After one store through rows `off`, rows that axis `a` keeps apart from them read what the buffer held. -/
theorem ld_read_writes_apart (v : View sig κ sp s e) (f : v.ty.Contents Val) {off size : Fin s.rank → ℕ}
    (inb : ∀ a, off a + size a ≤ s.size a) (w : (Rect.unit off size inb).shape.Idx → Val e)
    {off' size' : Fin s.rank → ℕ} (inb' : ∀ a, off' a + size' a ≤ s.size a) (a : Fin s.rank)
    (ha : off' a + size' a ≤ off a ∨ off a + size a ≤ off' a) :
    View.ld (v.read Val (v.writes Val f [(⟨Rect.unit off size inb, w⟩ : View.Piece Val s e)])) (Rect.unit off' size' inb')
      = View.ld (v.read Val f) (Rect.unit off' size' inb') := by
  funext x
  refine (View.read_writes_cons_unit_of_not_mem v f inb w [] ((Rect.unit off' size' inb').idx x) rfl a ?_).trans rfl
  have hx : (x a).val < size' a := (x a).isLt
  show off' a + 1 * (x a).val < off a ∨ off a + size a ≤ off' a + 1 * (x a).val
  omega

/-- One store through the whole shape leaves its payload, whatever the buffer held. -/
theorem read_writes_whole [∀ e, Nonempty (Val e)] (v : View sig κ sp s e) (f : v.ty.Contents Val) {off : Fin s.rank → ℕ}
    (h : off = fun _ => 0) (inb : ∀ a, off a + s.size a ≤ s.size a) (w : s.Idx → Val e) :
    v.read Val (v.writes Val f [(⟨Rect.unit off s.size inb, w⟩ : View.Piece Val s e)]) = w := by
  rw [View.read_writes_eq_canon v f _ (fun y => ⟨_, List.mem_singleton_self _, View.mem_set_unit_zero h inb y⟩),
    View.canon_unit_zero h]

/-- The covered read of a one-store list through the store's own rows is the payload. -/
theorem readCov_unit_same [∀ e, Nonempty (Val e)] (v : View sig κ sp s e) {off size : Fin s.rank → ℕ}
    (inb inb' : ∀ a, off a + size a ≤ s.size a) (w : (Rect.unit off size inb).shape.Idx → Val e) :
    v.readCov [(⟨Rect.unit off size inb, w⟩ : View.Piece Val s e)] (Rect.unit off size inb').toLoadRect = w :=
  ld_read_writes_same v v.junk inb inb' w

end Cert.UnitRows

end
-- ==== Proof.K.Pieces.lean ====
/-
  What the stores of each of the four runs leave, in closed form. The product slice of a half is
  `slice X Wm o`: rows o..o+4095 of x times W. A first-row point leaves that slice in the rows of the kept buffer it
  names, and every other row as it found it; every point leaves the running sum at "adjacency block times the half's
  slice" (first half) or that added to what the sum held (last half); a last-half point leaves the output's buffer at
  tanh of the sum plus the bias row plus the row block of x. Each statement is over the payload terms the printed body
  names, so nothing of the arithmetic is restated here.
-/
import proofs.«106130_g44306882625938_cont_8to1_c_1080_8_alg».proof.Proof.K.RunFinish
import proofs.«106130_g44306882625938_cont_8to1_c_1080_8_alg».proof.Proof.LibUnitRows

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

theorem hz : (![0, 0] : Fin 2 → Nat) = fun _ => 0 := funext fun a => by fin_cases a <;> rfl

/-- Rows `o 0 .. o 0 + 4095` of an 8192-row array. -/
abbrev bigRows (Y : Vec F S8192x128 .f32) (o : Fin 2 → ℕ) (inb : ∀ a, o a + S4096x128.size a ≤ S8192x128.size a) : Vec F S4096x128 .f32 :=
  View.ld Y (Rect.unit o S4096x128.size inb)
/-- Rows `o 0 .. o 0 + 511` of an 8192-row array. -/
abbrev blkRows (Y : Vec F S8192x128 .f32) (o : Fin 2 → ℕ) (inb : ∀ a, o a + S512x128.size a ≤ S8192x128.size a) : Vec F S512x128 .f32 :=
  View.ld Y (Rect.unit o S512x128.size inb)
/-- The slice of x·W a half keeps: the half's 4096 rows of x times W, as the body computes it. -/
abbrev slice (X : Vec F S8192x128 .f32) (Wm : Vec F S128x128 .f32) (o : Fin 2 → ℕ) (inb : ∀ a, o a + S4096x128.size a ≤ S8192x128.size a) : Vec F S4096x128 .f32 :=
  k0_pay1 (bigRows X o inb) Wm

variable (O : Vec F S512x128 .f32)
variable (c : Dev nD) (i : grid0.Coords)
    (arg2 : Memref sig .tc .vmem S8192x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S512x4096 .f32) (harg5 : arg5.IsWhole)
    (arg6 : Memref sig .tc .vmem S512x128 .f32) (harg6 : arg6.IsWhole) (arg7 : Memref sig .tc .vmem S8192x128 .f32) (harg7 : arg7.IsWhole)
    (arg8 : Memref sig .tc .vmem S512x128 .f32) (harg8 : arg8.IsWhole)
    (X : Vec F S8192x128 .f32) (Wm : Vec F S128x128 .f32) (B : Vec F S1x128 .f32) (A : Vec F S512x4096 .f32)
    (S : Vec F S8192x128 .f32)

/-! ## The first point -/

/-- The rows the first point names hold the half's slice afterwards; -/
theorem runFirst_kept_same (h1 : firstRow i) (h2 : firstHalf i) (h3 : ¬laterHalf i) (h4 : ¬lastHalf i) :
    bigRows (arg7.view.read (Elt F) (arg7.view.writes (Elt F) (harg7.unread S) (runFirst c i arg2 harg2 arg3 harg3 arg4 harg4 arg5 harg5 arg6 harg6 arg7 harg7 arg8 harg8 h1 h2 h3 h4 X Wm B A S O).1)) (k0_off2 i) (k0_off2_inb i)
      = slice X Wm (k0_off2 i) (k0_off2_inb i) := by
  unfold runFirst; dsimp only; sl_unfold_words
  simp only [View.readAt_eq_ld, harg2.read_unread, harg3.read_unread, harg4.read_unread, harg5.read_unread, harg6.read_unread, harg7.read_unread,
    View.ld_unit_zero (S := S128x128) hz, View.ld_unit_zero (S := S512x4096) hz, View.ld_unit_zero (S := S1x128) hz,
    View.ld_unit_zero (S := S512x128) hz]
  exact Cert.UnitRows.ld_read_writes_same arg7.view _ _ _ _

/-- rows that lie apart from them hold what they held. -/
theorem runFirst_kept_apart (h1 : firstRow i) (h2 : firstHalf i) (h3 : ¬laterHalf i) (h4 : ¬lastHalf i) (o : Fin 2 → ℕ) (inb : ∀ a, o a + S4096x128.size a ≤ S8192x128.size a)
    (ha : o 0 + S4096x128.size 0 ≤ k0_off2 i 0 ∨ k0_off2 i 0 + S4096x128.size 0 ≤ o 0) :
    bigRows (arg7.view.read (Elt F) (arg7.view.writes (Elt F) (harg7.unread S) (runFirst c i arg2 harg2 arg3 harg3 arg4 harg4 arg5 harg5 arg6 harg6 arg7 harg7 arg8 harg8 h1 h2 h3 h4 X Wm B A S O).1)) o inb = bigRows S o inb := by
  unfold runFirst; dsimp only; sl_unfold_words
  simp only [View.readAt_eq_ld, harg2.read_unread, harg3.read_unread, harg4.read_unread, harg5.read_unread, harg6.read_unread, harg7.read_unread,
    View.ld_unit_zero (S := S128x128) hz, View.ld_unit_zero (S := S512x4096) hz, View.ld_unit_zero (S := S1x128) hz,
    View.ld_unit_zero (S := S512x128) hz]
  exact (Cert.UnitRows.ld_read_writes_apart arg7.view _ _ _ inb 0 ha).trans (by rw [harg7.read_unread])

/-- The running sum starts at the adjacency block times the half's slice. -/
theorem runFirst_sum (h1 : firstRow i) (h2 : firstHalf i) (h3 : ¬laterHalf i) (h4 : ¬lastHalf i) (f : arg8.view.ty.Contents (Elt F)) :
    arg8.view.read (Elt F) (arg8.view.writes (Elt F) f (runFirst c i arg2 harg2 arg3 harg3 arg4 harg4 arg5 harg5 arg6 harg6 arg7 harg7 arg8 harg8 h1 h2 h3 h4 X Wm B A S O).2.1)
      = k0_pay3 A (slice X Wm (k0_off2 i) (k0_off2_inb i)) := by
  unfold runFirst; dsimp only; sl_unfold_words
  simp only [View.readAt_eq_ld, harg2.read_unread, harg3.read_unread, harg4.read_unread, harg5.read_unread, harg6.read_unread, harg7.read_unread,
    View.ld_unit_zero (S := S128x128) hz, View.ld_unit_zero (S := S512x4096) hz, View.ld_unit_zero (S := S1x128) hz,
    View.ld_unit_zero (S := S512x128) hz]
  refine (Cert.UnitRows.read_writes_whole _ f hz _ _).trans ?_
  exact congrArg (k0_pay3 A) (Cert.UnitRows.readCov_unit_same arg7.view _ _ _)

/-! ## The second point -/

variable (Acc : Vec F S512x128 .f32)

theorem runSecond_kept_same (h1 : firstRow i) (h2 : ¬firstHalf i) (h3 : laterHalf i) (h4 : lastHalf i) :
    bigRows (arg7.view.read (Elt F) (arg7.view.writes (Elt F) (harg7.unread S) (runSecond c i arg2 harg2 arg3 harg3 arg4 harg4 arg5 harg5 arg6 harg6 arg7 harg7 arg8 harg8 h1 h2 h3 h4 X Wm B A S Acc).1)) (k0_off2 i) (k0_off2_inb i)
      = slice X Wm (k0_off2 i) (k0_off2_inb i) := by
  unfold runSecond; dsimp only; sl_unfold_words
  simp only [View.readAt_eq_ld, harg2.read_unread, harg3.read_unread, harg4.read_unread, harg5.read_unread, harg7.read_unread, harg8.read_unread,
    View.ld_unit_zero (S := S128x128) hz, View.ld_unit_zero (S := S512x4096) hz, View.ld_unit_zero (S := S1x128) hz,
    View.ld_unit_zero (S := S512x128) hz]
  exact Cert.UnitRows.ld_read_writes_same arg7.view _ _ _ _

theorem runSecond_kept_apart (h1 : firstRow i) (h2 : ¬firstHalf i) (h3 : laterHalf i) (h4 : lastHalf i) (o : Fin 2 → ℕ) (inb : ∀ a, o a + S4096x128.size a ≤ S8192x128.size a)
    (ha : o 0 + S4096x128.size 0 ≤ k0_off2 i 0 ∨ k0_off2 i 0 + S4096x128.size 0 ≤ o 0) :
    bigRows (arg7.view.read (Elt F) (arg7.view.writes (Elt F) (harg7.unread S) (runSecond c i arg2 harg2 arg3 harg3 arg4 harg4 arg5 harg5 arg6 harg6 arg7 harg7 arg8 harg8 h1 h2 h3 h4 X Wm B A S Acc).1)) o inb = bigRows S o inb := by
  unfold runSecond; dsimp only; sl_unfold_words
  simp only [View.readAt_eq_ld, harg2.read_unread, harg3.read_unread, harg4.read_unread, harg5.read_unread, harg7.read_unread, harg8.read_unread,
    View.ld_unit_zero (S := S128x128) hz, View.ld_unit_zero (S := S512x4096) hz, View.ld_unit_zero (S := S1x128) hz,
    View.ld_unit_zero (S := S512x128) hz]
  exact (Cert.UnitRows.ld_read_writes_apart arg7.view _ _ _ inb 0 ha).trans (by rw [harg7.read_unread])

/-- The running sum is added to: what it held plus the adjacency block times the half's slice. -/
theorem runSecond_sum (h1 : firstRow i) (h2 : ¬firstHalf i) (h3 : laterHalf i) (h4 : lastHalf i) (f : arg8.view.ty.Contents (Elt F)) :
    arg8.view.read (Elt F) (arg8.view.writes (Elt F) f (runSecond c i arg2 harg2 arg3 harg3 arg4 harg4 arg5 harg5 arg6 harg6 arg7 harg7 arg8 harg8 h1 h2 h3 h4 X Wm B A S Acc).2.2.1)
      = k0_pay4 A (slice X Wm (k0_off2 i) (k0_off2_inb i)) Acc := by
  unfold runSecond; dsimp only; sl_unfold_words
  simp only [View.readAt_eq_ld, harg2.read_unread, harg3.read_unread, harg4.read_unread, harg5.read_unread, harg7.read_unread, harg8.read_unread,
    View.ld_unit_zero (S := S128x128) hz, View.ld_unit_zero (S := S512x4096) hz, View.ld_unit_zero (S := S1x128) hz,
    View.ld_unit_zero (S := S512x128) hz]
  refine (Cert.UnitRows.read_writes_whole _ f hz _ _).trans ?_
  exact congrArg (fun z => k0_pay4 A z Acc) (Cert.UnitRows.readCov_unit_same arg7.view _ _ _)

/-- The output block: tanh of the sum plus the bias row plus the row block of x. -/
theorem runSecond_out (h1 : firstRow i) (h2 : ¬firstHalf i) (h3 : laterHalf i) (h4 : lastHalf i) (f : arg6.view.ty.Contents (Elt F)) :
    arg6.view.read (Elt F) (arg6.view.writes (Elt F) f (runSecond c i arg2 harg2 arg3 harg3 arg4 harg4 arg5 harg5 arg6 harg6 arg7 harg7 arg8 harg8 h1 h2 h3 h4 X Wm B A S Acc).2.1)
      = k0_pay5 (blkRows X (k0_off3 i) (k0_off3_inb i h4)) (k0_pay4 A (slice X Wm (k0_off2 i) (k0_off2_inb i)) Acc) B := by
  unfold runSecond; dsimp only; sl_unfold_words
  simp only [View.readAt_eq_ld, harg2.read_unread, harg3.read_unread, harg4.read_unread, harg5.read_unread, harg7.read_unread, harg8.read_unread,
    View.ld_unit_zero (S := S128x128) hz, View.ld_unit_zero (S := S512x4096) hz, View.ld_unit_zero (S := S1x128) hz,
    View.ld_unit_zero (S := S512x128) hz]
  refine (Cert.UnitRows.read_writes_whole _ f hz _ _).trans ?_
  refine (congrArg (fun z => k0_pay5 (blkRows X (k0_off3 i) (k0_off3_inb i h4)) z B) (Cert.UnitRows.readCov_unit_same arg8.view _ _ _)).trans ?_
  exact congrArg (fun z => k0_pay5 (blkRows X (k0_off3 i) (k0_off3_inb i h4)) (k0_pay4 A z Acc) B) (Cert.UnitRows.readCov_unit_same arg7.view _ _ _)

/-! ## A later row block -/

theorem runStart_sum (h1 : ¬firstRow i) (h2 : firstHalf i) (h3 : ¬laterHalf i) (h4 : ¬lastHalf i) (f : arg8.view.ty.Contents (Elt F)) :
    arg8.view.read (Elt F) (arg8.view.writes (Elt F) f (runStart c i arg2 harg2 arg3 harg3 arg4 harg4 arg5 harg5 arg6 harg6 arg7 harg7 arg8 harg8 h1 h2 h3 h4 X Wm B A S O).1)
      = k0_pay3 A (bigRows S (k0_off2 i) (k0_off2_inb i)) := by
  unfold runStart; dsimp only; sl_unfold_words
  simp only [View.readAt_eq_ld, harg2.read_unread, harg3.read_unread, harg4.read_unread, harg5.read_unread, harg6.read_unread, harg7.read_unread,
    View.ld_unit_zero (S := S128x128) hz, View.ld_unit_zero (S := S512x4096) hz, View.ld_unit_zero (S := S1x128) hz,
    View.ld_unit_zero (S := S512x128) hz]
  exact Cert.UnitRows.read_writes_whole _ f hz _ _

theorem runFinish_sum (h1 : ¬firstRow i) (h2 : ¬firstHalf i) (h3 : laterHalf i) (h4 : lastHalf i) (f : arg8.view.ty.Contents (Elt F)) :
    arg8.view.read (Elt F) (arg8.view.writes (Elt F) f (runFinish c i arg2 harg2 arg3 harg3 arg4 harg4 arg5 harg5 arg6 harg6 arg7 harg7 arg8 harg8 h1 h2 h3 h4 X Wm B A S Acc).2.1)
      = k0_pay4 A (bigRows S (k0_off2 i) (k0_off2_inb i)) Acc := by
  unfold runFinish; dsimp only; sl_unfold_words
  simp only [View.readAt_eq_ld, harg2.read_unread, harg3.read_unread, harg4.read_unread, harg5.read_unread, harg7.read_unread, harg8.read_unread,
    View.ld_unit_zero (S := S128x128) hz, View.ld_unit_zero (S := S512x4096) hz, View.ld_unit_zero (S := S1x128) hz,
    View.ld_unit_zero (S := S512x128) hz]
  exact Cert.UnitRows.read_writes_whole _ f hz _ _

theorem runFinish_out (h1 : ¬firstRow i) (h2 : ¬firstHalf i) (h3 : laterHalf i) (h4 : lastHalf i) (f : arg6.view.ty.Contents (Elt F)) :
    arg6.view.read (Elt F) (arg6.view.writes (Elt F) f (runFinish c i arg2 harg2 arg3 harg3 arg4 harg4 arg5 harg5 arg6 harg6 arg7 harg7 arg8 harg8 h1 h2 h3 h4 X Wm B A S Acc).1)
      = k0_pay5 (blkRows X (k0_off3 i) (k0_off3_inb i h4)) (k0_pay4 A (bigRows S (k0_off2 i) (k0_off2_inb i)) Acc) B := by
  unfold runFinish; dsimp only; sl_unfold_words
  simp only [View.readAt_eq_ld, harg2.read_unread, harg3.read_unread, harg4.read_unread, harg5.read_unread, harg7.read_unread, harg8.read_unread,
    View.ld_unit_zero (S := S128x128) hz, View.ld_unit_zero (S := S512x4096) hz, View.ld_unit_zero (S := S1x128) hz,
    View.ld_unit_zero (S := S512x128) hz]
  refine (Cert.UnitRows.read_writes_whole _ f hz _ _).trans ?_
  exact congrArg (fun z => k0_pay5 (blkRows X (k0_off3 i) (k0_off3_inb i h4)) z B) (Cert.UnitRows.readCov_unit_same arg8.view _ _ _)

end Cert.Kernel.Body

end
-- ==== Proof.K.Data.lean ====
/-
  The proof data of the one pipeline. Point t is row block t / 2 and half t % 2 of the adjacency matrix. Over the
  arrays as the region finds them (x, W, the bias row, the adjacency matrix):
    * `supBlk t`  — the half's slice of x·W: rows 4096·(t % 2) .. +4095 of x times W;
    * `accBlk t`  — the running sum after point t: the point's adjacency block times its half's slice, at a last-half
                    point added to what the first-half point before it left;
    * `outBlk t`  — tanh of that sum plus the bias row plus rows 512·(t / 2) .. +511 of x: what a last-half point
                    stores into the output's buffer.
  All three are the printed body's own payload terms, so they are stated once for any reading of the floats.
  The invariant before point n ≥ 1: the kept product holds, in the rows of each half already visited, that half's
  slice (its other rows hold anything); the running sum's buffer holds `accBlk (n - 1)`.
-/
import proofs.«106130_g44306882625938_cont_8to1_c_1080_8_alg».proof.Proof.K.Pieces

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem N_eq : cfg0.N = 32 := N_0

/-- Point number n (taken modulo the 32 points, so that it is total). -/
def pt (n : ℕ) : Fin cfg0.N := ⟨n % 32, by rw [N_eq]; exact Nat.mod_lt _ (by decide)⟩
theorem pt_val (t : Fin cfg0.N) : pt t.val = t :=
  Fin.ext (Nat.mod_eq_of_lt (lt_of_lt_of_eq t.isLt N_eq))
theorem pt_val' (n : ℕ) (h : n < 32) : (pt n).val = n := Nat.mod_eq_of_lt h

/-! ## The inputs whose block never moves: x, W and the bias row are the same block at every point -/

/-- x as the region finds it, -/
abbrev aX (c : Dev nD) : Vec F S8192x128 .f32 := iblk m c 0 (pt 0)
/-- W, -/
abbrev aW (c : Dev nD) : Vec F S128x128 .f32 := iblk m c 1 (pt 0)
/-- and the bias as a row. -/
abbrev aB (c : Dev nD) : Vec F S1x128 .f32 := iblk m c 2 (pt 0)

theorem blkX_eq (c : Dev nD) (t : Fin cfg0.N) : (iblk m c 0 t : Vec F S8192x128 .f32) = aX m c := by
  funext j
  show V m c main_arg0 (((cfg0.win 0).blk t).view.emb j) = V m c main_arg0 (((cfg0.win 0).blk (pt 0)).view.emb j)
  congr 1

theorem blkW_eq (c : Dev nD) (t : Fin cfg0.N) : (iblk m c 1 t : Vec F S128x128 .f32) = aW m c := by
  funext j
  show V m c main_arg2 (((cfg0.win 1).blk t).view.emb j) = V m c main_arg2 (((cfg0.win 1).blk (pt 0)).view.emb j)
  congr 1

theorem blkB_eq (c : Dev nD) (t : Fin cfg0.N) : (iblk m c 2 t : Vec F S1x128 .f32) = aB m c := by
  funext j
  show V m c main_v0 (((cfg0.win 2).blk t).view.emb j) = V m c main_v0 (((cfg0.win 2).blk (pt 0)).view.emb j)
  congr 1

/-! ## What the body computes, point by point -/

/-- The rows of x the last-half branch adds lie inside x at every point (decided; the printed fact is stated only
    under the branch's condition). -/
theorem off3_inb : ∀ t : Fin cfg0.N, ∀ a, k0_off3 (grid0.coords t) a + S512x128.size a ≤ S8192x128.size a :=
  (by decide +kernel : ∀ t : Fin grid0.N, ∀ a, k0_off3 (grid0.coords t) a + S512x128.size a ≤ S8192x128.size a)

/-- The half's slice of x·W at point t. -/
def supBlk (c : Dev nD) (t : Fin cfg0.N) : Vec F S4096x128 .f32 :=
  slice (aX m c) (aW m c) (k0_off2 (grid0.coords t)) (k0_off2_inb _)
/-- What a first-half point leaves in the running sum. -/
def accStart (c : Dev nD) (t : Fin cfg0.N) : Vec F S512x128 .f32 := k0_pay3 (iblk m c 3 t) (supBlk m c t)
/-- The running sum after point t. -/
def accBlk (c : Dev nD) (t : Fin cfg0.N) : Vec F S512x128 .f32 :=
  if t.val % 2 = 0 then accStart m c t else k0_pay4 (iblk m c 3 t) (supBlk m c t) (accStart m c (pt (t.val - 1)))
/-- The output block a last-half point stores. -/
def outBlk (c : Dev nD) (t : Fin cfg0.N) : Vec F S512x128 .f32 :=
  k0_pay5 (blkRows (aX m c) (k0_off3 (grid0.coords t)) (off3_inb t)) (accBlk m c t) (aB m c)

/-- The half's offsets, and with them its slice, depend on the point only through its parity. -/
theorem off2_parity : ∀ t : Fin cfg0.N, k0_off2 (grid0.coords t) = k0_off2 (grid0.coords (pt (t.val % 2))) :=
  (by decide +kernel : ∀ t : Fin grid0.N, k0_off2 (grid0.coords t) = k0_off2 (grid0.coords (pt (t.val % 2))))

theorem supBlk_parity (c : Dev nD) (t : Fin cfg0.N) : supBlk m c t = supBlk m c (pt (t.val % 2)) := by
  unfold supBlk slice bigRows
  rw [Cert.UnitRows.ld_unit_congr (aX m c) (off2_parity t) (k0_off2_inb _) (k0_off2_inb _)]

/-- The kept product is right on the halves already visited before point n. -/
def KeptOk (c : Dev nD) (n : ℕ) (S : Vec F S8192x128 .f32) : Prop :=
  ∀ h : Fin cfg0.N, h.val < 2 → h.val < n →
    bigRows S (k0_off2 (grid0.coords h)) (k0_off2_inb _) = supBlk m c h

/-- The region invariant before point n: the class's before the first point (the kept buffers hold anything), then the
    kept product right where visited, the running sum at what the point before left, the generator at some state. -/
def Phi (c : Dev nD) : ℕ → sProp 𝕄
  | 0 => Pipeline.ΦA spec0 c
  | n + 1 => iprop(iprop((∃ S, ⌜KeptOk m c (n + 1) S⌝ ∗ owns (c : Thread nD τ) mS fullShare S)
        ∗ owns (c : Thread nD τ) mAcc fullShare (accBlk m c (pt n))) ∗ (∃ r, prngReg c r))

theorem Phi_zero (c : Dev nD) : Phi m c 0 = Pipeline.ΦA spec0 c := rfl
theorem Phi_succ (c : Dev nD) (n : ℕ) :
    Phi m c (n + 1) = iprop(iprop((∃ S, ⌜KeptOk m c (n + 1) S⌝ ∗ owns (c : Thread nD τ) mS fullShare S)
        ∗ owns (c : Thread nD τ) mAcc fullShare (accBlk m c (pt n))) ∗ (∃ r, prngReg c r)) := rfl
theorem Phi_pos (c : Dev nD) (n : ℕ) (hn : n ≠ 0) :
    Phi m c n = iprop(iprop((∃ S, ⌜KeptOk m c n S⌝ ∗ owns (c : Thread nD τ) mS fullShare S)
        ∗ owns (c : Thread nD τ) mAcc fullShare (accBlk m c (pt (n - 1)))) ∗ (∃ r, prngReg c r)) := by
  cases n with
  | zero => exact absurd rfl hn
  | succ n => rfl

/-! ## The proof data -/

/-- The arrays as the region finds them; after the body each input's buffer at its block and the output's at
    `outBlk`; the invariant `Phi`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk m c t
  Φ t := Phi m c t.val
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_out (c : Dev nD) (t : Fin cfg0.N) : (dats m 0 c).after 4 t = outBlk m c t := by dsimp only [dats]

/-- Each input's current buffer holds its block at every point, fetched there or not. -/
theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d

end Cert.Kernel.Body

end
-- ==== Proof.K.Sound.lean ====
/-
  The body obligation, the launch and the frame. At a generic point the closed forms of the four branch conditions
  say which of the four runs applies; the invariant hands the run the kept product (right on the halves visited so
  far) and the running sum of the point before, and takes them back one point later:
    * at the two points of the first row block the half's slice has just been stored, so the kept product becomes
      right on that half too, and stays right on the other (its rows lie apart);
    * at later row blocks the kept product is only read, and the rows read are a visited half's, so what is read is
      that half's slice;
    * a first-half point leaves the output's buffer as it found it, a last-half point leaves the finished block.
  Before the first point the kept buffers hold anything (the class invariant); after the last the named contents are
  forgotten again.
-/
import proofs.«106130_g44306882625938_cont_8to1_c_1080_8_alg».proof.Proof.K.Data

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Once both halves have been visited, the rows any point reads of the kept product are its half's slice. -/
theorem kept_at (c : Dev nD) (n : ℕ) (S : Vec F S8192x128 .f32) (hS : KeptOk m c n S) (hn : 2 ≤ n) (t : Fin cfg0.N) :
    bigRows S (k0_off2 (grid0.coords t)) (k0_off2_inb _) = supBlk m c t := by
  have hh : (pt (t.val % 2)).val = t.val % 2 := pt_val' _ (by omega)
  rw [supBlk_parity]
  exact (Cert.UnitRows.ld_unit_congr S (off2_parity t) (k0_off2_inb _) (k0_off2_inb _)).trans
    (hS _ (by rw [hh]; omega) (by rw [hh]; omega))

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (mX t) fullShare ((dats m 0 c).before 0 t d))
    ∗ (∃ d, owns (c : Thread nD τ) (mW t) fullShare ((dats m 0 c).before 1 t d))
    ∗ (∃ d, owns (c : Thread nD τ) (mB t) fullShare ((dats m 0 c).before 2 t d))
    ∗ (∃ d, owns (c : Thread nD τ) (mA t) fullShare ((dats m 0 c).before 3 t d))
    ∗ (∃ d, owns (c : Thread nD τ) (mO t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3]
  rw [show (dats m 0 c).owesAt () t.succ = (dats m 0 c).owesAt () t.castSucc from rfl]
  rw [show (dats m 0 c).Φ t.succ = Phi m c (t.val + 1) from rfl, Phi_succ, pt_val]
  rw [show (dats m 0 c).Φ t.castSucc = Phi m c t.val from rfl]
  rw [show (dats m 0 c).leavesExact 0 t = owns (c : Thread nD τ) (mX t) fullShare (iblk m c 0 t) from by
    unfold Dat.leavesExact; rw [live_in0 t, after_in0]]
  rw [show (dats m 0 c).leavesExact 1 t = owns (c : Thread nD τ) (mW t) fullShare (iblk m c 1 t) from by
    unfold Dat.leavesExact; rw [live_in1 t, after_in1]]
  rw [show (dats m 0 c).leavesExact 2 t = owns (c : Thread nD τ) (mB t) fullShare (iblk m c 2 t) from by
    unfold Dat.leavesExact; rw [live_in2 t, after_in2]]
  rw [show (dats m 0 c).leavesExact 3 t = owns (c : Thread nD τ) (mA t) fullShare (iblk m c 3 t) from by
    unfold Dat.leavesExact; rw [live_in3 t, after_in3]]
  have hN : t.val < 32 := lt_of_lt_of_eq t.isLt N_eq
  by_cases hk : t.val % 2 = 0
  · -- a first-half point: the output's buffer is idle and goes back as found
    rw [Dat.leavesExact_idle (dats m 0 c) 4 t (idle_out t hk) (noFlush_out t hk)]
    have c2 : firstHalf (grid0.coords t) := (firstHalf_iff t).mpr hk
    have c3 : ¬laterHalf (grid0.coords t) := fun h => by have := (laterHalf_iff t).mp h; omega
    have c4 : ¬lastHalf (grid0.coords t) := fun h => by have := (lastHalf_iff t).mp h; omega
    have hacc : accBlk m c t = accStart m c t := by unfold accBlk; rw [if_pos hk]
    by_cases hr : t.val < 2
    · -- the very first point
      have c1 : firstRow (grid0.coords t) := (firstRow_iff t).mpr hr
      have h0 : t.val = 0 := by omega
      rw [show Phi m c t.val = Pipeline.ΦA spec0 c from by rw [h0]; rfl, PhiA_eq]
      iintro ⟨⟨⟨⟨%S0, HS⟩, ⟨%d8, HA⟩⟩, Hg⟩, Ho, ⟨%d0, H0⟩, ⟨%d1, H1⟩, ⟨%d2, H2⟩, ⟨%d3, H3⟩, ⟨%d4, H4⟩⟩
      iapply ((runFirst c (grid0.coords t) (mX t) (hX t) (mW t) (hW t) (mB t) (hB t) (mA t) (hA t) (mO t) (hO t) mS (Memref.isWhole_whole _) mAcc (Memref.isWhole_whole _) c1 c2 c3 c4 (iblk m c 0 t) (iblk m c 1 t) (iblk m c 2 t) (iblk m c 3 t) S0 ((dats m 0 c).before 4 t d4)).2.2 Set.univ _)
      isplitl [H0]; · iexact H0
      isplitl [H1]; · iexact H1
      isplitl [H2]; · iexact H2
      isplitl [H3]; · iexact H3
      isplitl [H4]; · iexact H4
      isplitl [HS]; · iexact HS
      isplitl [HA]; · iexists _; iexact HA
      iintro ⟨H0, H1, H2, H3, H4, HS, ⟨%f8, HA⟩⟩
      isplitl [HS HA Hg]
      · isplitl [HS HA]
        · isplitl [HS]
          · iexists _; isplitr
            swap
            · unfold owns; iexists _; isplitr
              swap; · iexact HS
              ipureintro; rfl
            ipureintro
            intro h h2 hlt
            obtain rfl : h = t := Fin.ext (by omega)
            exact (runFirst_kept_same ((dats m 0 c).before 4 h d4) c (grid0.coords h) (mX h) (hX h) (mW h) (hW h) (mB h) (hB h) (mA h) (hA h) (mO h) (hO h) mS (Memref.isWhole_whole _) mAcc (Memref.isWhole_whole _) (iblk m c 0 h) (iblk m c 1 h) (iblk m c 2 h) (iblk m c 3 h) S0 c1 c2 c3 c4).trans (by
              unfold supBlk; rw [blkX_eq m c h, blkW_eq m c h])
          · unfold owns; iexists _; isplitr
            swap; · iexact HA
            ipureintro
            exact (runFirst_sum ((dats m 0 c).before 4 t d4) c (grid0.coords t) (mX t) (hX t) (mW t) (hW t) (mB t) (hB t) (mA t) (hA t) (mO t) (hO t) mS (Memref.isWhole_whole _) mAcc (Memref.isWhole_whole _) (iblk m c 0 t) (iblk m c 1 t) (iblk m c 2 t) (iblk m c 3 t) S0 c1 c2 c3 c4 f8).trans (by
              rw [hacc]; unfold accStart supBlk; rw [blkX_eq m c t, blkW_eq m c t])
        · iexact Hg
      isplitl [Ho]; · iexact Ho
      isplitl [H0]; · iexact H0
      isplitl [H1]; · iexact H1
      isplitl [H2]; · iexact H2
      isplitl [H3]; · iexact H3
      iexists d4; iexact H4
    · -- the first half of a later row block
      have c1 : ¬firstRow (grid0.coords t) := fun h => hr ((firstRow_iff t).mp h)
      have hz : t.val ≠ 0 := by omega
      rw [Phi_pos m c _ hz]
      iintro ⟨⟨⟨⟨%S0, %hS0, HS⟩, HA⟩, Hg⟩, Ho, ⟨%d0, H0⟩, ⟨%d1, H1⟩, ⟨%d2, H2⟩, ⟨%d3, H3⟩, ⟨%d4, H4⟩⟩
      iapply ((runStart c (grid0.coords t) (mX t) (hX t) (mW t) (hW t) (mB t) (hB t) (mA t) (hA t) (mO t) (hO t) mS (Memref.isWhole_whole _) mAcc (Memref.isWhole_whole _) c1 c2 c3 c4 (iblk m c 0 t) (iblk m c 1 t) (iblk m c 2 t) (iblk m c 3 t) S0 ((dats m 0 c).before 4 t d4)).2 Set.univ _)
      isplitl [H0]; · iexact H0
      isplitl [H1]; · iexact H1
      isplitl [H2]; · iexact H2
      isplitl [H3]; · iexact H3
      isplitl [H4]; · iexact H4
      isplitl [HS]; · iexact HS
      isplitl [HA]; · iexists _; iexact HA
      iintro ⟨H0, H1, H2, H3, H4, HS, ⟨%f8, HA⟩⟩
      isplitl [HS HA Hg]
      · isplitl [HS HA]
        · isplitl [HS]
          · iexists S0; isplitr
            · ipureintro; exact fun h h2 _ => hS0 h h2 (by omega)
            iexact HS
          · unfold owns; iexists _; isplitr
            swap; · iexact HA
            ipureintro
            exact (runStart_sum ((dats m 0 c).before 4 t d4) c (grid0.coords t) (mX t) (hX t) (mW t) (hW t) (mB t) (hB t) (mA t) (hA t) (mO t) (hO t) mS (Memref.isWhole_whole _) mAcc (Memref.isWhole_whole _) (iblk m c 0 t) (iblk m c 1 t) (iblk m c 2 t) (iblk m c 3 t) S0 c1 c2 c3 c4 f8).trans (by
              rw [hacc, kept_at m c t.val S0 hS0 (by omega) t]; rfl)
        · iexact Hg
      isplitl [Ho]; · iexact Ho
      isplitl [H0]; · iexact H0
      isplitl [H1]; · iexact H1
      isplitl [H2]; · iexact H2
      isplitl [H3]; · iexact H3
      iexists d4; iexact H4
  · -- a last-half point: the output block is finished and stored
    have hk' : t.val % 2 = 1 := by omega
    rw [show (dats m 0 c).leavesExact 4 t = owns (c : Thread nD τ) (mO t) fullShare (outBlk m c t) from by
      unfold Dat.leavesExact; rw [live_out t hk', after_out]]
    have c2 : ¬firstHalf (grid0.coords t) := fun h => hk ((firstHalf_iff t).mp h)
    have c3 : laterHalf (grid0.coords t) := (laterHalf_iff t).mpr hk'
    have c4 : lastHalf (grid0.coords t) := (lastHalf_iff t).mpr hk'
    have hz : t.val ≠ 0 := by omega
    have hprev : accBlk m c (pt (t.val - 1)) = accStart m c (pt (t.val - 1)) := (show accBlk m c (pt (t.val - 1)) = accStart m c (pt (t.val - 1)) from by
            unfold accBlk; rw [if_pos (by rw [pt_val' _ (by omega)]; omega)])
    have hacc : accBlk m c t = k0_pay4 (iblk m c 3 t) (supBlk m c t) (accBlk m c (pt (t.val - 1))) := by
      rw [hprev]; unfold accBlk; rw [if_neg hk]
    rw [Phi_pos m c _ hz]
    by_cases hr : t.val < 2
    · -- the second point
      have c1 : firstRow (grid0.coords t) := (firstRow_iff t).mpr hr
      iintro ⟨⟨⟨⟨%S0, %hS0, HS⟩, HA⟩, Hg⟩, Ho, ⟨%d0, H0⟩, ⟨%d1, H1⟩, ⟨%d2, H2⟩, ⟨%d3, H3⟩, ⟨%d4, H4⟩⟩
      iapply ((runSecond c (grid0.coords t) (mX t) (hX t) (mW t) (hW t) (mB t) (hB t) (mA t) (hA t) (mO t) (hO t) mS (Memref.isWhole_whole _) mAcc (Memref.isWhole_whole _) c1 c2 c3 c4 (iblk m c 0 t) (iblk m c 1 t) (iblk m c 2 t) (iblk m c 3 t) S0 (accBlk m c (pt (t.val - 1)))).2.2.2 Set.univ _)
      isplitl [H0]; · iexact H0
      isplitl [H1]; · iexact H1
      isplitl [H2]; · iexact H2
      isplitl [H3]; · iexact H3
      isplitl [H4]; · iexists _; iexact H4
      isplitl [HS]; · iexact HS
      isplitl [HA]; · iexact HA
      iintro ⟨H0, H1, H2, H3, ⟨%f6, H4⟩, HS, ⟨%f8, HA⟩⟩
      have hsup : slice (iblk m c 0 t) (iblk m c 1 t) (k0_off2 (grid0.coords t)) (k0_off2_inb _) = supBlk m c t := by
        unfold supBlk; rw [blkX_eq m c t, blkW_eq m c t]
      isplitl [HS HA Hg]
      · isplitl [HS HA]
        · isplitl [HS]
          · iexists _; isplitr
            swap
            · unfold owns; iexists _; isplitr
              swap; · iexact HS
              ipureintro; rfl
            ipureintro
            intro h h2 hlt
            by_cases hht : h = t
            · subst hht
              exact (runSecond_kept_same c (grid0.coords h) (mX h) (hX h) (mW h) (hW h) (mB h) (hB h) (mA h) (hA h) (mO h) (hO h) mS (Memref.isWhole_whole _) mAcc (Memref.isWhole_whole _) (iblk m c 0 h) (iblk m c 1 h) (iblk m c 2 h) (iblk m c 3 h) S0 (accBlk m c (pt (h.val - 1))) c1 c2 c3 c4).trans hsup
            · have hh0 : h.val = 0 := by
                have : h.val ≠ t.val := fun e => hht (Fin.ext e)
                omega
              have e1 : k0_off2 (grid0.coords t) 0 = 4096 * (t.val % 2) := by rw [off2_eq t]; rfl
              have e2 : k0_off2 (grid0.coords h) 0 = 4096 * (h.val % 2) := by rw [off2_eq h]; rfl
              have e3 : S4096x128.size 0 = 4096 := rfl
              exact (runSecond_kept_apart c (grid0.coords t) (mX t) (hX t) (mW t) (hW t) (mB t) (hB t) (mA t) (hA t) (mO t) (hO t) mS (Memref.isWhole_whole _) mAcc (Memref.isWhole_whole _) (iblk m c 0 t) (iblk m c 1 t) (iblk m c 2 t) (iblk m c 3 t) S0 (accBlk m c (pt (t.val - 1))) c1 c2 c3 c4
                (k0_off2 (grid0.coords h)) (k0_off2_inb _) (by rw [e1, e2, e3]; omega)).trans (hS0 h h2 (by omega))
          · unfold owns; iexists _; isplitr
            swap; · iexact HA
            ipureintro
            exact (runSecond_sum c (grid0.coords t) (mX t) (hX t) (mW t) (hW t) (mB t) (hB t) (mA t) (hA t) (mO t) (hO t) mS (Memref.isWhole_whole _) mAcc (Memref.isWhole_whole _) (iblk m c 0 t) (iblk m c 1 t) (iblk m c 2 t) (iblk m c 3 t) S0 (accBlk m c (pt (t.val - 1))) c1 c2 c3 c4 f8).trans (by
              rw [hacc, hsup])
        · iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (runSecond_out c (grid0.coords t) (mX t) (hX t) (mW t) (hW t) (mB t) (hB t) (mA t) (hA t) (mO t) (hO t) mS (Memref.isWhole_whole _) mAcc (Memref.isWhole_whole _) (iblk m c 0 t) (iblk m c 1 t) (iblk m c 2 t) (iblk m c 3 t) S0 (accBlk m c (pt (t.val - 1))) c1 c2 c3 c4 f6).trans (by
        unfold outBlk; rw [hacc, hsup, blkX_eq m c t, blkB_eq m c t])
    · -- the last half of a later row block
      have c1 : ¬firstRow (grid0.coords t) := fun h => hr ((firstRow_iff t).mp h)
      iintro ⟨⟨⟨⟨%S0, %hS0, HS⟩, HA⟩, Hg⟩, Ho, ⟨%d0, H0⟩, ⟨%d1, H1⟩, ⟨%d2, H2⟩, ⟨%d3, H3⟩, ⟨%d4, H4⟩⟩
      iapply ((runFinish c (grid0.coords t) (mX t) (hX t) (mW t) (hW t) (mB t) (hB t) (mA t) (hA t) (mO t) (hO t) mS (Memref.isWhole_whole _) mAcc (Memref.isWhole_whole _) c1 c2 c3 c4 (iblk m c 0 t) (iblk m c 1 t) (iblk m c 2 t) (iblk m c 3 t) S0 (accBlk m c (pt (t.val - 1)))).2.2 Set.univ _)
      isplitl [H0]; · iexact H0
      isplitl [H1]; · iexact H1
      isplitl [H2]; · iexact H2
      isplitl [H3]; · iexact H3
      isplitl [H4]; · iexists _; iexact H4
      isplitl [HS]; · iexact HS
      isplitl [HA]; · iexact HA
      iintro ⟨H0, H1, H2, H3, ⟨%f6, H4⟩, HS, ⟨%f8, HA⟩⟩
      have hsup : bigRows S0 (k0_off2 (grid0.coords t)) (k0_off2_inb _) = supBlk m c t :=
        kept_at m c t.val S0 hS0 (by omega) t
      isplitl [HS HA Hg]
      · isplitl [HS HA]
        · isplitl [HS]
          · iexists S0; isplitr
            · ipureintro; exact fun h h2 _ => hS0 h h2 (by omega)
            iexact HS
          · unfold owns; iexists _; isplitr
            swap; · iexact HA
            ipureintro
            exact (runFinish_sum c (grid0.coords t) (mX t) (hX t) (mW t) (hW t) (mB t) (hB t) (mA t) (hA t) (mO t) (hO t) mS (Memref.isWhole_whole _) mAcc (Memref.isWhole_whole _) (iblk m c 0 t) (iblk m c 1 t) (iblk m c 2 t) (iblk m c 3 t) S0 (accBlk m c (pt (t.val - 1))) c1 c2 c3 c4 f8).trans (by
              rw [hacc, hsup])
        · iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (runFinish_out c (grid0.coords t) (mX t) (hX t) (mW t) (hW t) (mB t) (hB t) (mA t) (hA t) (mO t) (hO t) mS (Memref.isWhole_whole _) mAcc (Memref.isWhole_whole _) (iblk m c 0 t) (iblk m c 1 t) (iblk m c 2 t) (iblk m c 3 t) S0 (accBlk m c (pt (t.val - 1))) c1 c2 c3 c4 f6).trans (by
        unfold outBlk; rw [hacc, hsup, blkX_eq m c t, blkB_eq m c t])

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 from rfl, Phi_zero]

/-- After the last point the named contents of the kept buffers are forgotten again. -/
theorem hout (c : Dev nD) : (dats m 0 c).Φ (Fin.last cfg0.N) ⊢ Pipeline.ΦA spec0 c := by
  rw [show (dats m 0 c).Φ (Fin.last cfg0.N) = Phi m c (Fin.last cfg0.N).val from rfl,
    Phi_pos m c _ (by rw [Fin.val_last, N_eq]; decide), PhiA_eq]
  iintro ⟨⟨⟨%S, -, HS⟩, HA⟩, Hg⟩
  isplitl [HS HA]
  · isplitl [HS]; · iexists _; iexact HS
    iexists _; iexact HA
  iexact Hg

set_option backward.isDefEq.respectTransparency.types false in
/-- Every weakly fair execution of @main ends, faulting nowhere, with every array of the pipeline at what the library
    computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to its end and its four argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KI.Cases.lean ====
/-
  The grid of the graph-convolution kernel is 16 row blocks by 2 column halves, visited row-major: point t is
  row block t / 2 and half t % 2. Its body branches four times on the coordinates: "first row block" (the
  half's slice of the product x·W is computed and kept), "first half" (the running sum is started), "not the
  first half" (the running sum is added to) and "last half" (the output block is finished). This module decides
  those conditions, and the offsets the body computes from the coordinates, in closed form over the 32 points,
  says where the output window is idle and where its block is written back, and spells the region invariant
  with the two buffers the kernel keeps for itself as owned memrefs.
-/
import proofs.«106130_g44306882625938_cont_8to1_c_1080_8_alg».proof.Proof.Gen.KernelIdeal.Frame
import proofs.«106130_g44306882625938_cont_8to1_c_1080_8_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The four branch conditions -/

/-- "This is the first row block": the branch that computes a slice of x·W. -/
abbrev firstRow (i : grid0.Coords) : Prop := k0_cond1 i = 1#1
/-- "This is the first half": the branch that starts the running sum. -/
abbrev firstHalf (i : grid0.Coords) : Prop :=
  (Scalar.cmpi .ne (Scalar.extui (Scalar.cmpi .eq (BitVec.ofNat 32 (i 1).val) 0#32)) 0#32) = 1#1
/-- "This is not the first half": the branch that adds to the running sum. -/
abbrev laterHalf (i : grid0.Coords) : Prop :=
  (Scalar.cmpi .ne (Scalar.extui (Scalar.cmpi .ne (BitVec.ofNat 32 (i 1).val) 0#32)) 0#32) = 1#1
/-- "This is the last half": the branch that finishes the output block. -/
abbrev lastHalf (i : grid0.Coords) : Prop := k0_cond4 i = 1#1

theorem firstRow_iff : ∀ t : Fin cfg0.N, firstRow (grid0.coords t) ↔ t.val < 2 :=
  (by decide +kernel : ∀ t : Fin grid0.N, firstRow (grid0.coords t) ↔ t.val < 2)
theorem firstHalf_iff : ∀ t : Fin cfg0.N, firstHalf (grid0.coords t) ↔ t.val % 2 = 0 :=
  (by decide +kernel : ∀ t : Fin grid0.N, firstHalf (grid0.coords t) ↔ t.val % 2 = 0)
theorem laterHalf_iff : ∀ t : Fin cfg0.N, laterHalf (grid0.coords t) ↔ t.val % 2 = 1 :=
  (by decide +kernel : ∀ t : Fin grid0.N, laterHalf (grid0.coords t) ↔ t.val % 2 = 1)
theorem lastHalf_iff : ∀ t : Fin cfg0.N, lastHalf (grid0.coords t) ↔ t.val % 2 = 1 :=
  (by decide +kernel : ∀ t : Fin grid0.N, lastHalf (grid0.coords t) ↔ t.val % 2 = 1)

/-! ## The offsets the body computes -/

/-- The rows of x the first-row branch multiplies, and the rows of the kept product it stores: half h starts at row 4096·h. -/
theorem off1_eq : ∀ t : Fin cfg0.N, k0_off1 (grid0.coords t) = ![4096 * (t.val % 2), 0] :=
  (by decide +kernel : ∀ t : Fin grid0.N, k0_off1 (grid0.coords t) = ![4096 * (t.val % 2), 0])
/-- The rows of the kept product every point reads back: the same. -/
theorem off2_eq : ∀ t : Fin cfg0.N, k0_off2 (grid0.coords t) = ![4096 * (t.val % 2), 0] :=
  (by decide +kernel : ∀ t : Fin grid0.N, k0_off2 (grid0.coords t) = ![4096 * (t.val % 2), 0])
/-- The rows of x the last-half branch adds: row block b starts at row 512·b. -/
theorem off3_eq : ∀ t : Fin cfg0.N, k0_off3 (grid0.coords t) = ![512 * (t.val / 2), 0] :=
  (by decide +kernel : ∀ t : Fin grid0.N, k0_off3 (grid0.coords t) = ![512 * (t.val / 2), 0])

/-! ## Where the output window is idle, and where its block goes back -/

theorem live_in0 : ∀ t : Fin cfg0.N, cfg0.idle 0 (grid0.coords t) = false := by decide +kernel
theorem live_in1 : ∀ t : Fin cfg0.N, cfg0.idle 1 (grid0.coords t) = false := by decide +kernel
theorem live_in2 : ∀ t : Fin cfg0.N, cfg0.idle 2 (grid0.coords t) = false := by decide +kernel
theorem live_in3 : ∀ t : Fin cfg0.N, cfg0.idle 3 (grid0.coords t) = false := by decide +kernel
/-- At a first-half point the body stores nothing into the output's buffer, -/
theorem idle_out : ∀ t : Fin cfg0.N, t.val % 2 = 0 → cfg0.idle 4 (grid0.coords t) = true := by decide +kernel
/-- and the block is not written back there; -/
theorem noFlush_out : ∀ t : Fin cfg0.N, t.val % 2 = 0 → (cfg0.win 4).flush t = false := by decide +kernel
/-- at a last-half point it stores the finished block. -/
theorem live_out : ∀ t : Fin cfg0.N, t.val % 2 = 1 → cfg0.idle 4 (grid0.coords t) = false := by decide +kernel

/-! ## The memrefs the body is called with -/

abbrev mX (t : Fin cfg0.N) : Memref sig .tc .vmem S8192x128 .f32 := win0_0.stage (cfg0.slots t 0)
abbrev hX (t : Fin cfg0.N) : (mX t).IsWhole := hstage0_0 ((cfg0.slots t 0).cast nbuf0_0)
abbrev mW (t : Fin cfg0.N) : Memref sig .tc .vmem S128x128 .f32 := win0_1.stage (cfg0.slots t 1)
abbrev hW (t : Fin cfg0.N) : (mW t).IsWhole := hstage0_1 ((cfg0.slots t 1).cast nbuf0_1)
abbrev mB (t : Fin cfg0.N) : Memref sig .tc .vmem S1x128 .f32 := win0_2.stage (cfg0.slots t 2)
abbrev hB (t : Fin cfg0.N) : (mB t).IsWhole := hstage0_2 ((cfg0.slots t 2).cast nbuf0_2)
abbrev mA (t : Fin cfg0.N) : Memref sig .tc .vmem S512x4096 .f32 := win0_3.stage (cfg0.slots t 3)
abbrev hA (t : Fin cfg0.N) : (mA t).IsWhole := hstage0_3 ((cfg0.slots t 3).cast nbuf0_3)
abbrev mO (t : Fin cfg0.N) : Memref sig .tc .vmem S512x128 .f32 := win0_4.stage (cfg0.slots t 4)
abbrev hO (t : Fin cfg0.N) : (mO t).IsWhole := hstage0_4 ((cfg0.slots t 4).cast nbuf0_4)
/-- The kept product x·W (8192 rows), -/
abbrev mS : Memref sig .tc .vmem S8192x128 .f32 := Memref.whole cc0_scratch0
/-- and the running sum of the row block in hand. -/
abbrev mAcc : Memref sig .tc .vmem S512x128 .f32 := Memref.whole cc0_scratch1

/-- The class invariant with the two kept buffers as memrefs owned at some contents. -/
theorem PhiA_eq (c : Dev nD) :
    (Pipeline.ΦA spec0 c : sProp 𝕄)
      = iprop(iprop((∃ d, owns (c : Thread nD τ) mS fullShare d) ∗ (∃ d, owns (c : Thread nD τ) mAcc fullShare d)) ∗ (∃ r, prngReg c r)) := by
  unfold Pipeline.ΦA; rw [scopedRest0_eq]; simp only [mS, mAcc, owns_whole]; try rfl

end Cert.KernelIdeal.Body

end
-- ==== Proof.KI.RunFirst.lean ====
/-
  The body at the very first point (first row block, first half). It multiplies rows 0..4095 of x by W and keeps the
  product in the first half of the 8192-row buffer, reads that half back, multiplies the point's 512×4096 block of
  the adjacency matrix by it and starts the running sum with the result. Nothing is stored into the output's buffer.
  The triple is a subtype: the stores the symbolic run meets, listed newest first, are its witness.
-/
import proofs.«106130_g44306882625938_cont_8to1_c_1080_8_alg».proof.Proof.KI.Cases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- What the first point's stores leave in the kept product (over the contents `S` it found there) and in the running
    sum, with the proof that the body runs to its end holding the inputs, and the output's buffer `O`, as they were. -/
noncomputable def runFirst (c : Dev nD) (i : grid0.Coords)
    (arg2 : Memref sig .tc .vmem S8192x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S512x4096 .f32) (harg5 : arg5.IsWhole)
    (arg6 : Memref sig .tc .vmem S512x128 .f32) (harg6 : arg6.IsWhole) (arg7 : Memref sig .tc .vmem S8192x128 .f32) (harg7 : arg7.IsWhole)
    (arg8 : Memref sig .tc .vmem S512x128 .f32) (harg8 : arg8.IsWhole)
    (h1 : firstRow i) (h2 : firstHalf i) (h3 : ¬laterHalf i) (h4 : ¬lastHalf i)
    (X : Vec F S8192x128 .f32) (Wm : Vec F S128x128 .f32) (B : Vec F S1x128 .f32) (A : Vec F S512x4096 .f32)
    (S : Vec F S8192x128 .f32) (O : Vec F S512x128 .f32) :
    Σ' (LS : List (View.Piece (Elt F) S8192x128 .f32)), { LA : List (View.Piece (Elt F) S512x128 .f32) //
      ∀ (E : Set ℕ) (K : PUnit → sProp 𝕄),
        iprop(owns (c : Thread nD τ) arg2 fullShare X ∗ owns (c : Thread nD τ) arg3 fullShare Wm ∗ owns (c : Thread nD τ) arg4 fullShare B ∗ owns (c : Thread nD τ) arg5 fullShare A
            ∗ owns (c : Thread nD τ) arg6 fullShare O ∗ owns (c : Thread nD τ) arg7 fullShare S ∗ (∃ d, owns (c : Thread nD τ) arg8 fullShare d)
            ∗ (iprop(owns (c : Thread nD τ) arg2 fullShare X ∗ owns (c : Thread nD τ) arg3 fullShare Wm ∗ owns (c : Thread nD τ) arg4 fullShare B ∗ owns (c : Thread nD τ) arg5 fullShare A
                ∗ owns (c : Thread nD τ) arg6 fullShare O
                ∗ (arg7.view.loc (c : Thread nD τ) ↦[arg7.view.set]{fullShare} arg7.view.writes (Elt F) (harg7.unread S) LS)
                ∗ (∃ f, (arg8.view.loc (c : Thread nD τ) ↦[arg8.view.set]{fullShare} arg8.view.writes (Elt F) f LA))) -∗ K ⟨⟩))
          ⊢ wp frame (wpE (defs₀ (F := F)) Variants.none c none) E (cc0__gcn2d i arg2 harg2 arg3 harg3 arg4 harg4 arg5 harg5 arg6 harg6 arg7 harg7 arg8 harg8) K } := by
  refine ⟨?_, ?_, fun E K => ?run⟩
  case run =>
    simp only [cc0__gcn2d_eq_skeleton]; unfold cc0__gcn2d_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg2.eq_unread hf2; obtain rfl := harg3.eq_unread hf3; obtain rfl := harg4.eq_unread hf4
    obtain rfl := harg5.eq_unread hf5; obtain rfl := harg7.eq_unread hf7; obtain rfl := harg6.eq_unread hf6
    sl_exec (disch := first | exact h1 | exact h2 | exact h3 | exact h4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexact H7
    iexists _; iexact H8

end Cert.KernelIdeal.Body

end
-- ==== Proof.KI.RunSecond.lean ====
/-
  The body at the second point (first row block, last half). It multiplies rows 4096..8191 of x by W and keeps the
  product in the second half of the 8192-row buffer, reads that half back, multiplies the point's block of the
  adjacency matrix by it, adds the result to the running sum `Acc` the first point left, and finishes the output
  block: the sum plus the bias row plus the row block of x, through tanh.
-/
import proofs.«106130_g44306882625938_cont_8to1_c_1080_8_alg».proof.Proof.KI.RunFirst

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- What the second point's stores leave in the kept product, in the output's buffer and in the running sum. -/
noncomputable def runSecond (c : Dev nD) (i : grid0.Coords)
    (arg2 : Memref sig .tc .vmem S8192x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S512x4096 .f32) (harg5 : arg5.IsWhole)
    (arg6 : Memref sig .tc .vmem S512x128 .f32) (harg6 : arg6.IsWhole) (arg7 : Memref sig .tc .vmem S8192x128 .f32) (harg7 : arg7.IsWhole)
    (arg8 : Memref sig .tc .vmem S512x128 .f32) (harg8 : arg8.IsWhole)
    (h1 : firstRow i) (h2 : ¬firstHalf i) (h3 : laterHalf i) (h4 : lastHalf i)
    (X : Vec F S8192x128 .f32) (Wm : Vec F S128x128 .f32) (B : Vec F S1x128 .f32) (A : Vec F S512x4096 .f32)
    (S : Vec F S8192x128 .f32) (Acc : Vec F S512x128 .f32) :
    Σ' (LS : List (View.Piece (Elt F) S8192x128 .f32)), Σ' (LO : List (View.Piece (Elt F) S512x128 .f32)), { LA : List (View.Piece (Elt F) S512x128 .f32) //
      ∀ (E : Set ℕ) (K : PUnit → sProp 𝕄),
        iprop(owns (c : Thread nD τ) arg2 fullShare X ∗ owns (c : Thread nD τ) arg3 fullShare Wm ∗ owns (c : Thread nD τ) arg4 fullShare B ∗ owns (c : Thread nD τ) arg5 fullShare A
            ∗ (∃ d, owns (c : Thread nD τ) arg6 fullShare d) ∗ owns (c : Thread nD τ) arg7 fullShare S ∗ owns (c : Thread nD τ) arg8 fullShare Acc
            ∗ (iprop(owns (c : Thread nD τ) arg2 fullShare X ∗ owns (c : Thread nD τ) arg3 fullShare Wm ∗ owns (c : Thread nD τ) arg4 fullShare B ∗ owns (c : Thread nD τ) arg5 fullShare A
                ∗ (∃ f, (arg6.view.loc (c : Thread nD τ) ↦[arg6.view.set]{fullShare} arg6.view.writes (Elt F) f LO))
                ∗ (arg7.view.loc (c : Thread nD τ) ↦[arg7.view.set]{fullShare} arg7.view.writes (Elt F) (harg7.unread S) LS)
                ∗ (∃ f, (arg8.view.loc (c : Thread nD τ) ↦[arg8.view.set]{fullShare} arg8.view.writes (Elt F) f LA))) -∗ K ⟨⟩))
          ⊢ wp frame (wpE (defs₀ (F := F)) Variants.none c none) E (cc0__gcn2d i arg2 harg2 arg3 harg3 arg4 harg4 arg5 harg5 arg6 harg6 arg7 harg7 arg8 harg8) K } := by
  refine ⟨?_, ?_, ?_, fun E K => ?run⟩
  case run =>
    simp only [cc0__gcn2d_eq_skeleton]; unfold cc0__gcn2d_skel
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg2.eq_unread hf2; obtain rfl := harg3.eq_unread hf3; obtain rfl := harg4.eq_unread hf4
    obtain rfl := harg5.eq_unread hf5; obtain rfl := harg7.eq_unread hf7; obtain rfl := harg8.eq_unread hf8
    sl_exec (disch := first | exact h1 | exact h2 | exact h3 | exact h4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexact H7
    iexists _; iexact H8

end Cert.KernelIdeal.Body

end
-- ==== Proof.KI.RunStart.lean ====
/-
  The body at the first half of a later row block. The kept product is only read: the point's block of the adjacency
  matrix times its first 4096 rows starts the running sum. Nothing is stored into the output's buffer or the product.
-/
import proofs.«106130_g44306882625938_cont_8to1_c_1080_8_alg».proof.Proof.KI.RunSecond

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- What such a point's one store leaves in the running sum; the kept product `S` and the output's buffer `O` are handed back as found. -/
noncomputable def runStart (c : Dev nD) (i : grid0.Coords)
    (arg2 : Memref sig .tc .vmem S8192x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S512x4096 .f32) (harg5 : arg5.IsWhole)
    (arg6 : Memref sig .tc .vmem S512x128 .f32) (harg6 : arg6.IsWhole) (arg7 : Memref sig .tc .vmem S8192x128 .f32) (harg7 : arg7.IsWhole)
    (arg8 : Memref sig .tc .vmem S512x128 .f32) (harg8 : arg8.IsWhole)
    (h1 : ¬firstRow i) (h2 : firstHalf i) (h3 : ¬laterHalf i) (h4 : ¬lastHalf i)
    (X : Vec F S8192x128 .f32) (Wm : Vec F S128x128 .f32) (B : Vec F S1x128 .f32) (A : Vec F S512x4096 .f32)
    (S : Vec F S8192x128 .f32) (O : Vec F S512x128 .f32) :
    { LA : List (View.Piece (Elt F) S512x128 .f32) //
      ∀ (E : Set ℕ) (K : PUnit → sProp 𝕄),
        iprop(owns (c : Thread nD τ) arg2 fullShare X ∗ owns (c : Thread nD τ) arg3 fullShare Wm ∗ owns (c : Thread nD τ) arg4 fullShare B ∗ owns (c : Thread nD τ) arg5 fullShare A
            ∗ owns (c : Thread nD τ) arg6 fullShare O ∗ owns (c : Thread nD τ) arg7 fullShare S ∗ (∃ d, owns (c : Thread nD τ) arg8 fullShare d)
            ∗ (iprop(owns (c : Thread nD τ) arg2 fullShare X ∗ owns (c : Thread nD τ) arg3 fullShare Wm ∗ owns (c : Thread nD τ) arg4 fullShare B ∗ owns (c : Thread nD τ) arg5 fullShare A
                ∗ owns (c : Thread nD τ) arg6 fullShare O
                ∗ owns (c : Thread nD τ) arg7 fullShare S
                ∗ (∃ f, (arg8.view.loc (c : Thread nD τ) ↦[arg8.view.set]{fullShare} arg8.view.writes (Elt F) f LA))) -∗ K ⟨⟩))
          ⊢ wp frame (wpE (defs₀ (F := F)) Variants.none c none) E (cc0__gcn2d i arg2 harg2 arg3 harg3 arg4 harg4 arg5 harg5 arg6 harg6 arg7 harg7 arg8 harg8) K } := by
  refine ⟨?_, fun E K => ?run⟩
  case run =>
    simp only [cc0__gcn2d_eq_skeleton]; unfold cc0__gcn2d_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg2.eq_unread hf2; obtain rfl := harg3.eq_unread hf3; obtain rfl := harg4.eq_unread hf4
    obtain rfl := harg5.eq_unread hf5; obtain rfl := harg7.eq_unread hf7; obtain rfl := harg6.eq_unread hf6
    sl_exec (disch := first | exact h1 | exact h2 | exact h3 | exact h4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact H8

end Cert.KernelIdeal.Body

end
-- ==== Proof.KI.RunFinish.lean ====
/-
  The body at the last half of a later row block. The point's block of the adjacency matrix times the last 4096 rows
  of the kept product is added to the running sum `Acc`, and the output block is finished: the sum plus the bias row
  plus the row block of x, through tanh. The kept product is only read.
-/
import proofs.«106130_g44306882625938_cont_8to1_c_1080_8_alg».proof.Proof.KI.RunStart

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- What such a point's stores leave in the output's buffer and in the running sum; the kept product `S` is handed back as found. -/
noncomputable def runFinish (c : Dev nD) (i : grid0.Coords)
    (arg2 : Memref sig .tc .vmem S8192x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S512x4096 .f32) (harg5 : arg5.IsWhole)
    (arg6 : Memref sig .tc .vmem S512x128 .f32) (harg6 : arg6.IsWhole) (arg7 : Memref sig .tc .vmem S8192x128 .f32) (harg7 : arg7.IsWhole)
    (arg8 : Memref sig .tc .vmem S512x128 .f32) (harg8 : arg8.IsWhole)
    (h1 : ¬firstRow i) (h2 : ¬firstHalf i) (h3 : laterHalf i) (h4 : lastHalf i)
    (X : Vec F S8192x128 .f32) (Wm : Vec F S128x128 .f32) (B : Vec F S1x128 .f32) (A : Vec F S512x4096 .f32)
    (S : Vec F S8192x128 .f32) (Acc : Vec F S512x128 .f32) :
    Σ' (LO : List (View.Piece (Elt F) S512x128 .f32)), { LA : List (View.Piece (Elt F) S512x128 .f32) //
      ∀ (E : Set ℕ) (K : PUnit → sProp 𝕄),
        iprop(owns (c : Thread nD τ) arg2 fullShare X ∗ owns (c : Thread nD τ) arg3 fullShare Wm ∗ owns (c : Thread nD τ) arg4 fullShare B ∗ owns (c : Thread nD τ) arg5 fullShare A
            ∗ (∃ d, owns (c : Thread nD τ) arg6 fullShare d) ∗ owns (c : Thread nD τ) arg7 fullShare S ∗ owns (c : Thread nD τ) arg8 fullShare Acc
            ∗ (iprop(owns (c : Thread nD τ) arg2 fullShare X ∗ owns (c : Thread nD τ) arg3 fullShare Wm ∗ owns (c : Thread nD τ) arg4 fullShare B ∗ owns (c : Thread nD τ) arg5 fullShare A
                ∗ (∃ f, (arg6.view.loc (c : Thread nD τ) ↦[arg6.view.set]{fullShare} arg6.view.writes (Elt F) f LO))
                ∗ owns (c : Thread nD τ) arg7 fullShare S
                ∗ (∃ f, (arg8.view.loc (c : Thread nD τ) ↦[arg8.view.set]{fullShare} arg8.view.writes (Elt F) f LA))) -∗ K ⟨⟩))
          ⊢ wp frame (wpE (defs₀ (F := F)) Variants.none c none) E (cc0__gcn2d i arg2 harg2 arg3 harg3 arg4 harg4 arg5 harg5 arg6 harg6 arg7 harg7 arg8 harg8) K } := by
  refine ⟨?_, ?_, fun E K => ?run⟩
  case run =>
    simp only [cc0__gcn2d_eq_skeleton]; unfold cc0__gcn2d_skel
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg2.eq_unread hf2; obtain rfl := harg3.eq_unread hf3; obtain rfl := harg4.eq_unread hf4
    obtain rfl := harg5.eq_unread hf5; obtain rfl := harg7.eq_unread hf7; obtain rfl := harg8.eq_unread hf8
    sl_exec (disch := first | exact h1 | exact h2 | exact h3 | exact h4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    iexists _; iexact H8

end Cert.KernelIdeal.Body

end
-- ==== Proof.KI.Pieces.lean ====
/-
  What the stores of each of the four runs leave, in closed form. The product slice of a half is
  `slice X Wm o`: rows o..o+4095 of x times W. A first-row point leaves that slice in the rows of the kept buffer it
  names, and every other row as it found it; every point leaves the running sum at "adjacency block times the half's
  slice" (first half) or that added to what the sum held (last half); a last-half point leaves the output's buffer at
  tanh of the sum plus the bias row plus the row block of x. Each statement is over the payload terms the printed body
  names, so nothing of the arithmetic is restated here.
-/
import proofs.«106130_g44306882625938_cont_8to1_c_1080_8_alg».proof.Proof.KI.RunFinish
import proofs.«106130_g44306882625938_cont_8to1_c_1080_8_alg».proof.Proof.LibUnitRows

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem hz : (![0, 0] : Fin 2 → Nat) = fun _ => 0 := funext fun a => by fin_cases a <;> rfl

/-- Rows `o 0 .. o 0 + 4095` of an 8192-row array. -/
abbrev bigRows (Y : Vec F S8192x128 .f32) (o : Fin 2 → ℕ) (inb : ∀ a, o a + S4096x128.size a ≤ S8192x128.size a) : Vec F S4096x128 .f32 :=
  View.ld Y (Rect.unit o S4096x128.size inb)
/-- Rows `o 0 .. o 0 + 511` of an 8192-row array. -/
abbrev blkRows (Y : Vec F S8192x128 .f32) (o : Fin 2 → ℕ) (inb : ∀ a, o a + S512x128.size a ≤ S8192x128.size a) : Vec F S512x128 .f32 :=
  View.ld Y (Rect.unit o S512x128.size inb)
/-- The slice of x·W a half keeps: the half's 4096 rows of x times W, as the body computes it. -/
abbrev slice (X : Vec F S8192x128 .f32) (Wm : Vec F S128x128 .f32) (o : Fin 2 → ℕ) (inb : ∀ a, o a + S4096x128.size a ≤ S8192x128.size a) : Vec F S4096x128 .f32 :=
  k0_pay1 (bigRows X o inb) Wm

variable (O : Vec F S512x128 .f32)
variable (c : Dev nD) (i : grid0.Coords)
    (arg2 : Memref sig .tc .vmem S8192x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S512x4096 .f32) (harg5 : arg5.IsWhole)
    (arg6 : Memref sig .tc .vmem S512x128 .f32) (harg6 : arg6.IsWhole) (arg7 : Memref sig .tc .vmem S8192x128 .f32) (harg7 : arg7.IsWhole)
    (arg8 : Memref sig .tc .vmem S512x128 .f32) (harg8 : arg8.IsWhole)
    (X : Vec F S8192x128 .f32) (Wm : Vec F S128x128 .f32) (B : Vec F S1x128 .f32) (A : Vec F S512x4096 .f32)
    (S : Vec F S8192x128 .f32)

/-! ## The first point -/

/-- The rows the first point names hold the half's slice afterwards; -/
theorem runFirst_kept_same (h1 : firstRow i) (h2 : firstHalf i) (h3 : ¬laterHalf i) (h4 : ¬lastHalf i) :
    bigRows (arg7.view.read (Elt F) (arg7.view.writes (Elt F) (harg7.unread S) (runFirst c i arg2 harg2 arg3 harg3 arg4 harg4 arg5 harg5 arg6 harg6 arg7 harg7 arg8 harg8 h1 h2 h3 h4 X Wm B A S O).1)) (k0_off2 i) (k0_off2_inb i)
      = slice X Wm (k0_off2 i) (k0_off2_inb i) := by
  unfold runFirst; dsimp only; sl_unfold_words
  simp only [View.readAt_eq_ld, harg2.read_unread, harg3.read_unread, harg4.read_unread, harg5.read_unread, harg6.read_unread, harg7.read_unread,
    View.ld_unit_zero (S := S128x128) hz, View.ld_unit_zero (S := S512x4096) hz, View.ld_unit_zero (S := S1x128) hz,
    View.ld_unit_zero (S := S512x128) hz]
  exact Cert.UnitRows.ld_read_writes_same arg7.view _ _ _ _

/-- rows that lie apart from them hold what they held. -/
theorem runFirst_kept_apart (h1 : firstRow i) (h2 : firstHalf i) (h3 : ¬laterHalf i) (h4 : ¬lastHalf i) (o : Fin 2 → ℕ) (inb : ∀ a, o a + S4096x128.size a ≤ S8192x128.size a)
    (ha : o 0 + S4096x128.size 0 ≤ k0_off2 i 0 ∨ k0_off2 i 0 + S4096x128.size 0 ≤ o 0) :
    bigRows (arg7.view.read (Elt F) (arg7.view.writes (Elt F) (harg7.unread S) (runFirst c i arg2 harg2 arg3 harg3 arg4 harg4 arg5 harg5 arg6 harg6 arg7 harg7 arg8 harg8 h1 h2 h3 h4 X Wm B A S O).1)) o inb = bigRows S o inb := by
  unfold runFirst; dsimp only; sl_unfold_words
  simp only [View.readAt_eq_ld, harg2.read_unread, harg3.read_unread, harg4.read_unread, harg5.read_unread, harg6.read_unread, harg7.read_unread,
    View.ld_unit_zero (S := S128x128) hz, View.ld_unit_zero (S := S512x4096) hz, View.ld_unit_zero (S := S1x128) hz,
    View.ld_unit_zero (S := S512x128) hz]
  exact (Cert.UnitRows.ld_read_writes_apart arg7.view _ _ _ inb 0 ha).trans (by rw [harg7.read_unread])

/-- The running sum starts at the adjacency block times the half's slice. -/
theorem runFirst_sum (h1 : firstRow i) (h2 : firstHalf i) (h3 : ¬laterHalf i) (h4 : ¬lastHalf i) (f : arg8.view.ty.Contents (Elt F)) :
    arg8.view.read (Elt F) (arg8.view.writes (Elt F) f (runFirst c i arg2 harg2 arg3 harg3 arg4 harg4 arg5 harg5 arg6 harg6 arg7 harg7 arg8 harg8 h1 h2 h3 h4 X Wm B A S O).2.1)
      = k0_pay3 A (slice X Wm (k0_off2 i) (k0_off2_inb i)) := by
  unfold runFirst; dsimp only; sl_unfold_words
  simp only [View.readAt_eq_ld, harg2.read_unread, harg3.read_unread, harg4.read_unread, harg5.read_unread, harg6.read_unread, harg7.read_unread,
    View.ld_unit_zero (S := S128x128) hz, View.ld_unit_zero (S := S512x4096) hz, View.ld_unit_zero (S := S1x128) hz,
    View.ld_unit_zero (S := S512x128) hz]
  refine (Cert.UnitRows.read_writes_whole _ f hz _ _).trans ?_
  exact congrArg (k0_pay3 A) (Cert.UnitRows.readCov_unit_same arg7.view _ _ _)

/-! ## The second point -/

variable (Acc : Vec F S512x128 .f32)

theorem runSecond_kept_same (h1 : firstRow i) (h2 : ¬firstHalf i) (h3 : laterHalf i) (h4 : lastHalf i) :
    bigRows (arg7.view.read (Elt F) (arg7.view.writes (Elt F) (harg7.unread S) (runSecond c i arg2 harg2 arg3 harg3 arg4 harg4 arg5 harg5 arg6 harg6 arg7 harg7 arg8 harg8 h1 h2 h3 h4 X Wm B A S Acc).1)) (k0_off2 i) (k0_off2_inb i)
      = slice X Wm (k0_off2 i) (k0_off2_inb i) := by
  unfold runSecond; dsimp only; sl_unfold_words
  simp only [View.readAt_eq_ld, harg2.read_unread, harg3.read_unread, harg4.read_unread, harg5.read_unread, harg7.read_unread, harg8.read_unread,
    View.ld_unit_zero (S := S128x128) hz, View.ld_unit_zero (S := S512x4096) hz, View.ld_unit_zero (S := S1x128) hz,
    View.ld_unit_zero (S := S512x128) hz]
  exact Cert.UnitRows.ld_read_writes_same arg7.view _ _ _ _

theorem runSecond_kept_apart (h1 : firstRow i) (h2 : ¬firstHalf i) (h3 : laterHalf i) (h4 : lastHalf i) (o : Fin 2 → ℕ) (inb : ∀ a, o a + S4096x128.size a ≤ S8192x128.size a)
    (ha : o 0 + S4096x128.size 0 ≤ k0_off2 i 0 ∨ k0_off2 i 0 + S4096x128.size 0 ≤ o 0) :
    bigRows (arg7.view.read (Elt F) (arg7.view.writes (Elt F) (harg7.unread S) (runSecond c i arg2 harg2 arg3 harg3 arg4 harg4 arg5 harg5 arg6 harg6 arg7 harg7 arg8 harg8 h1 h2 h3 h4 X Wm B A S Acc).1)) o inb = bigRows S o inb := by
  unfold runSecond; dsimp only; sl_unfold_words
  simp only [View.readAt_eq_ld, harg2.read_unread, harg3.read_unread, harg4.read_unread, harg5.read_unread, harg7.read_unread, harg8.read_unread,
    View.ld_unit_zero (S := S128x128) hz, View.ld_unit_zero (S := S512x4096) hz, View.ld_unit_zero (S := S1x128) hz,
    View.ld_unit_zero (S := S512x128) hz]
  exact (Cert.UnitRows.ld_read_writes_apart arg7.view _ _ _ inb 0 ha).trans (by rw [harg7.read_unread])

/-- The running sum is added to: what it held plus the adjacency block times the half's slice. -/
theorem runSecond_sum (h1 : firstRow i) (h2 : ¬firstHalf i) (h3 : laterHalf i) (h4 : lastHalf i) (f : arg8.view.ty.Contents (Elt F)) :
    arg8.view.read (Elt F) (arg8.view.writes (Elt F) f (runSecond c i arg2 harg2 arg3 harg3 arg4 harg4 arg5 harg5 arg6 harg6 arg7 harg7 arg8 harg8 h1 h2 h3 h4 X Wm B A S Acc).2.2.1)
      = k0_pay4 A (slice X Wm (k0_off2 i) (k0_off2_inb i)) Acc := by
  unfold runSecond; dsimp only; sl_unfold_words
  simp only [View.readAt_eq_ld, harg2.read_unread, harg3.read_unread, harg4.read_unread, harg5.read_unread, harg7.read_unread, harg8.read_unread,
    View.ld_unit_zero (S := S128x128) hz, View.ld_unit_zero (S := S512x4096) hz, View.ld_unit_zero (S := S1x128) hz,
    View.ld_unit_zero (S := S512x128) hz]
  refine (Cert.UnitRows.read_writes_whole _ f hz _ _).trans ?_
  exact congrArg (fun z => k0_pay4 A z Acc) (Cert.UnitRows.readCov_unit_same arg7.view _ _ _)

/-- The output block: tanh of the sum plus the bias row plus the row block of x. -/
theorem runSecond_out (h1 : firstRow i) (h2 : ¬firstHalf i) (h3 : laterHalf i) (h4 : lastHalf i) (f : arg6.view.ty.Contents (Elt F)) :
    arg6.view.read (Elt F) (arg6.view.writes (Elt F) f (runSecond c i arg2 harg2 arg3 harg3 arg4 harg4 arg5 harg5 arg6 harg6 arg7 harg7 arg8 harg8 h1 h2 h3 h4 X Wm B A S Acc).2.1)
      = k0_pay5 (blkRows X (k0_off3 i) (k0_off3_inb i h4)) (k0_pay4 A (slice X Wm (k0_off2 i) (k0_off2_inb i)) Acc) B := by
  unfold runSecond; dsimp only; sl_unfold_words
  simp only [View.readAt_eq_ld, harg2.read_unread, harg3.read_unread, harg4.read_unread, harg5.read_unread, harg7.read_unread, harg8.read_unread,
    View.ld_unit_zero (S := S128x128) hz, View.ld_unit_zero (S := S512x4096) hz, View.ld_unit_zero (S := S1x128) hz,
    View.ld_unit_zero (S := S512x128) hz]
  refine (Cert.UnitRows.read_writes_whole _ f hz _ _).trans ?_
  refine (congrArg (fun z => k0_pay5 (blkRows X (k0_off3 i) (k0_off3_inb i h4)) z B) (Cert.UnitRows.readCov_unit_same arg8.view _ _ _)).trans ?_
  exact congrArg (fun z => k0_pay5 (blkRows X (k0_off3 i) (k0_off3_inb i h4)) (k0_pay4 A z Acc) B) (Cert.UnitRows.readCov_unit_same arg7.view _ _ _)

/-! ## A later row block -/

theorem runStart_sum (h1 : ¬firstRow i) (h2 : firstHalf i) (h3 : ¬laterHalf i) (h4 : ¬lastHalf i) (f : arg8.view.ty.Contents (Elt F)) :
    arg8.view.read (Elt F) (arg8.view.writes (Elt F) f (runStart c i arg2 harg2 arg3 harg3 arg4 harg4 arg5 harg5 arg6 harg6 arg7 harg7 arg8 harg8 h1 h2 h3 h4 X Wm B A S O).1)
      = k0_pay3 A (bigRows S (k0_off2 i) (k0_off2_inb i)) := by
  unfold runStart; dsimp only; sl_unfold_words
  simp only [View.readAt_eq_ld, harg2.read_unread, harg3.read_unread, harg4.read_unread, harg5.read_unread, harg6.read_unread, harg7.read_unread,
    View.ld_unit_zero (S := S128x128) hz, View.ld_unit_zero (S := S512x4096) hz, View.ld_unit_zero (S := S1x128) hz,
    View.ld_unit_zero (S := S512x128) hz]
  exact Cert.UnitRows.read_writes_whole _ f hz _ _

theorem runFinish_sum (h1 : ¬firstRow i) (h2 : ¬firstHalf i) (h3 : laterHalf i) (h4 : lastHalf i) (f : arg8.view.ty.Contents (Elt F)) :
    arg8.view.read (Elt F) (arg8.view.writes (Elt F) f (runFinish c i arg2 harg2 arg3 harg3 arg4 harg4 arg5 harg5 arg6 harg6 arg7 harg7 arg8 harg8 h1 h2 h3 h4 X Wm B A S Acc).2.1)
      = k0_pay4 A (bigRows S (k0_off2 i) (k0_off2_inb i)) Acc := by
  unfold runFinish; dsimp only; sl_unfold_words
  simp only [View.readAt_eq_ld, harg2.read_unread, harg3.read_unread, harg4.read_unread, harg5.read_unread, harg7.read_unread, harg8.read_unread,
    View.ld_unit_zero (S := S128x128) hz, View.ld_unit_zero (S := S512x4096) hz, View.ld_unit_zero (S := S1x128) hz,
    View.ld_unit_zero (S := S512x128) hz]
  exact Cert.UnitRows.read_writes_whole _ f hz _ _

theorem runFinish_out (h1 : ¬firstRow i) (h2 : ¬firstHalf i) (h3 : laterHalf i) (h4 : lastHalf i) (f : arg6.view.ty.Contents (Elt F)) :
    arg6.view.read (Elt F) (arg6.view.writes (Elt F) f (runFinish c i arg2 harg2 arg3 harg3 arg4 harg4 arg5 harg5 arg6 harg6 arg7 harg7 arg8 harg8 h1 h2 h3 h4 X Wm B A S Acc).1)
      = k0_pay5 (blkRows X (k0_off3 i) (k0_off3_inb i h4)) (k0_pay4 A (bigRows S (k0_off2 i) (k0_off2_inb i)) Acc) B := by
  unfold runFinish; dsimp only; sl_unfold_words
  simp only [View.readAt_eq_ld, harg2.read_unread, harg3.read_unread, harg4.read_unread, harg5.read_unread, harg7.read_unread, harg8.read_unread,
    View.ld_unit_zero (S := S128x128) hz, View.ld_unit_zero (S := S512x4096) hz, View.ld_unit_zero (S := S1x128) hz,
    View.ld_unit_zero (S := S512x128) hz]
  refine (Cert.UnitRows.read_writes_whole _ f hz _ _).trans ?_
  exact congrArg (fun z => k0_pay5 (blkRows X (k0_off3 i) (k0_off3_inb i h4)) z B) (Cert.UnitRows.readCov_unit_same arg8.view _ _ _)

end Cert.KernelIdeal.Body

end
-- ==== Proof.KI.Data.lean ====
/-
  The proof data of the one pipeline. Point t is row block t / 2 and half t % 2 of the adjacency matrix. Over the
  arrays as the region finds them (x, W, the bias row, the adjacency matrix):
    * `supBlk t`  — the half's slice of x·W: rows 4096·(t % 2) .. +4095 of x times W;
    * `accBlk t`  — the running sum after point t: the point's adjacency block times its half's slice, at a last-half
                    point added to what the first-half point before it left;
    * `outBlk t`  — tanh of that sum plus the bias row plus rows 512·(t / 2) .. +511 of x: what a last-half point
                    stores into the output's buffer.
  All three are the printed body's own payload terms, so they are stated once for any reading of the floats.
  The invariant before point n ≥ 1: the kept product holds, in the rows of each half already visited, that half's
  slice (its other rows hold anything); the running sum's buffer holds `accBlk (n - 1)`.
-/
import proofs.«106130_g44306882625938_cont_8to1_c_1080_8_alg».proof.Proof.KI.Pieces

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem N_eq : cfg0.N = 32 := N_0

/-- Point number n (taken modulo the 32 points, so that it is total). -/
def pt (n : ℕ) : Fin cfg0.N := ⟨n % 32, by rw [N_eq]; exact Nat.mod_lt _ (by decide)⟩
theorem pt_val (t : Fin cfg0.N) : pt t.val = t :=
  Fin.ext (Nat.mod_eq_of_lt (lt_of_lt_of_eq t.isLt N_eq))
theorem pt_val' (n : ℕ) (h : n < 32) : (pt n).val = n := Nat.mod_eq_of_lt h

/-! ## The inputs whose block never moves: x, W and the bias row are the same block at every point -/

/-- x as the region finds it, -/
abbrev aX (c : Dev nD) : Vec F S8192x128 .f32 := iblk m c 0 (pt 0)
/-- W, -/
abbrev aW (c : Dev nD) : Vec F S128x128 .f32 := iblk m c 1 (pt 0)
/-- and the bias as a row. -/
abbrev aB (c : Dev nD) : Vec F S1x128 .f32 := iblk m c 2 (pt 0)

theorem blkX_eq (c : Dev nD) (t : Fin cfg0.N) : (iblk m c 0 t : Vec F S8192x128 .f32) = aX m c := by
  funext j
  show V m c main_arg0 (((cfg0.win 0).blk t).view.emb j) = V m c main_arg0 (((cfg0.win 0).blk (pt 0)).view.emb j)
  congr 1

theorem blkW_eq (c : Dev nD) (t : Fin cfg0.N) : (iblk m c 1 t : Vec F S128x128 .f32) = aW m c := by
  funext j
  show V m c main_arg2 (((cfg0.win 1).blk t).view.emb j) = V m c main_arg2 (((cfg0.win 1).blk (pt 0)).view.emb j)
  congr 1

theorem blkB_eq (c : Dev nD) (t : Fin cfg0.N) : (iblk m c 2 t : Vec F S1x128 .f32) = aB m c := by
  funext j
  show V m c main_v0 (((cfg0.win 2).blk t).view.emb j) = V m c main_v0 (((cfg0.win 2).blk (pt 0)).view.emb j)
  congr 1

/-! ## What the body computes, point by point -/

/-- The rows of x the last-half branch adds lie inside x at every point (decided; the printed fact is stated only
    under the branch's condition). -/
theorem off3_inb : ∀ t : Fin cfg0.N, ∀ a, k0_off3 (grid0.coords t) a + S512x128.size a ≤ S8192x128.size a :=
  (by decide +kernel : ∀ t : Fin grid0.N, ∀ a, k0_off3 (grid0.coords t) a + S512x128.size a ≤ S8192x128.size a)

/-- The half's slice of x·W at point t. -/
def supBlk (c : Dev nD) (t : Fin cfg0.N) : Vec F S4096x128 .f32 :=
  slice (aX m c) (aW m c) (k0_off2 (grid0.coords t)) (k0_off2_inb _)
/-- What a first-half point leaves in the running sum. -/
def accStart (c : Dev nD) (t : Fin cfg0.N) : Vec F S512x128 .f32 := k0_pay3 (iblk m c 3 t) (supBlk m c t)
/-- The running sum after point t. -/
def accBlk (c : Dev nD) (t : Fin cfg0.N) : Vec F S512x128 .f32 :=
  if t.val % 2 = 0 then accStart m c t else k0_pay4 (iblk m c 3 t) (supBlk m c t) (accStart m c (pt (t.val - 1)))
/-- The output block a last-half point stores. -/
def outBlk (c : Dev nD) (t : Fin cfg0.N) : Vec F S512x128 .f32 :=
  k0_pay5 (blkRows (aX m c) (k0_off3 (grid0.coords t)) (off3_inb t)) (accBlk m c t) (aB m c)

/-- The half's offsets, and with them its slice, depend on the point only through its parity. -/
theorem off2_parity : ∀ t : Fin cfg0.N, k0_off2 (grid0.coords t) = k0_off2 (grid0.coords (pt (t.val % 2))) :=
  (by decide +kernel : ∀ t : Fin grid0.N, k0_off2 (grid0.coords t) = k0_off2 (grid0.coords (pt (t.val % 2))))

theorem supBlk_parity (c : Dev nD) (t : Fin cfg0.N) : supBlk m c t = supBlk m c (pt (t.val % 2)) := by
  unfold supBlk slice bigRows
  rw [Cert.UnitRows.ld_unit_congr (aX m c) (off2_parity t) (k0_off2_inb _) (k0_off2_inb _)]

/-- The kept product is right on the halves already visited before point n. -/
def KeptOk (c : Dev nD) (n : ℕ) (S : Vec F S8192x128 .f32) : Prop :=
  ∀ h : Fin cfg0.N, h.val < 2 → h.val < n →
    bigRows S (k0_off2 (grid0.coords h)) (k0_off2_inb _) = supBlk m c h

/-- The region invariant before point n: the class's before the first point (the kept buffers hold anything), then the
    kept product right where visited, the running sum at what the point before left, the generator at some state. -/
def Phi (c : Dev nD) : ℕ → sProp 𝕄
  | 0 => Pipeline.ΦA spec0 c
  | n + 1 => iprop(iprop((∃ S, ⌜KeptOk m c (n + 1) S⌝ ∗ owns (c : Thread nD τ) mS fullShare S)
        ∗ owns (c : Thread nD τ) mAcc fullShare (accBlk m c (pt n))) ∗ (∃ r, prngReg c r))

theorem Phi_zero (c : Dev nD) : Phi m c 0 = Pipeline.ΦA spec0 c := rfl
theorem Phi_succ (c : Dev nD) (n : ℕ) :
    Phi m c (n + 1) = iprop(iprop((∃ S, ⌜KeptOk m c (n + 1) S⌝ ∗ owns (c : Thread nD τ) mS fullShare S)
        ∗ owns (c : Thread nD τ) mAcc fullShare (accBlk m c (pt n))) ∗ (∃ r, prngReg c r)) := rfl
theorem Phi_pos (c : Dev nD) (n : ℕ) (hn : n ≠ 0) :
    Phi m c n = iprop(iprop((∃ S, ⌜KeptOk m c n S⌝ ∗ owns (c : Thread nD τ) mS fullShare S)
        ∗ owns (c : Thread nD τ) mAcc fullShare (accBlk m c (pt (n - 1)))) ∗ (∃ r, prngReg c r)) := by
  cases n with
  | zero => exact absurd rfl hn
  | succ n => rfl

/-! ## The proof data -/

/-- The arrays as the region finds them; after the body each input's buffer at its block and the output's at
    `outBlk`; the invariant `Phi`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk m c t
  Φ t := Phi m c t.val
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_out (c : Dev nD) (t : Fin cfg0.N) : (dats m 0 c).after 4 t = outBlk m c t := by dsimp only [dats]

/-- Each input's current buffer holds its block at every point, fetched there or not. -/
theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d

end Cert.KernelIdeal.Body

end
-- ==== Proof.KI.Sound.lean ====
/-
  The body obligation, the launch and the frame. At a generic point the closed forms of the four branch conditions
  say which of the four runs applies; the invariant hands the run the kept product (right on the halves visited so
  far) and the running sum of the point before, and takes them back one point later:
    * at the two points of the first row block the half's slice has just been stored, so the kept product becomes
      right on that half too, and stays right on the other (its rows lie apart);
    * at later row blocks the kept product is only read, and the rows read are a visited half's, so what is read is
      that half's slice;
    * a first-half point leaves the output's buffer as it found it, a last-half point leaves the finished block.
  Before the first point the kept buffers hold anything (the class invariant); after the last the named contents are
  forgotten again.
-/
import proofs.«106130_g44306882625938_cont_8to1_c_1080_8_alg».proof.Proof.KI.Data

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Once both halves have been visited, the rows any point reads of the kept product are its half's slice. -/
theorem kept_at (c : Dev nD) (n : ℕ) (S : Vec F S8192x128 .f32) (hS : KeptOk m c n S) (hn : 2 ≤ n) (t : Fin cfg0.N) :
    bigRows S (k0_off2 (grid0.coords t)) (k0_off2_inb _) = supBlk m c t := by
  have hh : (pt (t.val % 2)).val = t.val % 2 := pt_val' _ (by omega)
  rw [supBlk_parity]
  exact (Cert.UnitRows.ld_unit_congr S (off2_parity t) (k0_off2_inb _) (k0_off2_inb _)).trans
    (hS _ (by rw [hh]; omega) (by rw [hh]; omega))

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (mX t) fullShare ((dats m 0 c).before 0 t d))
    ∗ (∃ d, owns (c : Thread nD τ) (mW t) fullShare ((dats m 0 c).before 1 t d))
    ∗ (∃ d, owns (c : Thread nD τ) (mB t) fullShare ((dats m 0 c).before 2 t d))
    ∗ (∃ d, owns (c : Thread nD τ) (mA t) fullShare ((dats m 0 c).before 3 t d))
    ∗ (∃ d, owns (c : Thread nD τ) (mO t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3]
  rw [show (dats m 0 c).owesAt () t.succ = (dats m 0 c).owesAt () t.castSucc from rfl]
  rw [show (dats m 0 c).Φ t.succ = Phi m c (t.val + 1) from rfl, Phi_succ, pt_val]
  rw [show (dats m 0 c).Φ t.castSucc = Phi m c t.val from rfl]
  rw [show (dats m 0 c).leavesExact 0 t = owns (c : Thread nD τ) (mX t) fullShare (iblk m c 0 t) from by
    unfold Dat.leavesExact; rw [live_in0 t, after_in0]]
  rw [show (dats m 0 c).leavesExact 1 t = owns (c : Thread nD τ) (mW t) fullShare (iblk m c 1 t) from by
    unfold Dat.leavesExact; rw [live_in1 t, after_in1]]
  rw [show (dats m 0 c).leavesExact 2 t = owns (c : Thread nD τ) (mB t) fullShare (iblk m c 2 t) from by
    unfold Dat.leavesExact; rw [live_in2 t, after_in2]]
  rw [show (dats m 0 c).leavesExact 3 t = owns (c : Thread nD τ) (mA t) fullShare (iblk m c 3 t) from by
    unfold Dat.leavesExact; rw [live_in3 t, after_in3]]
  have hN : t.val < 32 := lt_of_lt_of_eq t.isLt N_eq
  by_cases hk : t.val % 2 = 0
  · -- a first-half point: the output's buffer is idle and goes back as found
    rw [Dat.leavesExact_idle (dats m 0 c) 4 t (idle_out t hk) (noFlush_out t hk)]
    have c2 : firstHalf (grid0.coords t) := (firstHalf_iff t).mpr hk
    have c3 : ¬laterHalf (grid0.coords t) := fun h => by have := (laterHalf_iff t).mp h; omega
    have c4 : ¬lastHalf (grid0.coords t) := fun h => by have := (lastHalf_iff t).mp h; omega
    have hacc : accBlk m c t = accStart m c t := by unfold accBlk; rw [if_pos hk]
    by_cases hr : t.val < 2
    · -- the very first point
      have c1 : firstRow (grid0.coords t) := (firstRow_iff t).mpr hr
      have h0 : t.val = 0 := by omega
      rw [show Phi m c t.val = Pipeline.ΦA spec0 c from by rw [h0]; rfl, PhiA_eq]
      iintro ⟨⟨⟨⟨%S0, HS⟩, ⟨%d8, HA⟩⟩, Hg⟩, Ho, ⟨%d0, H0⟩, ⟨%d1, H1⟩, ⟨%d2, H2⟩, ⟨%d3, H3⟩, ⟨%d4, H4⟩⟩
      iapply ((runFirst c (grid0.coords t) (mX t) (hX t) (mW t) (hW t) (mB t) (hB t) (mA t) (hA t) (mO t) (hO t) mS (Memref.isWhole_whole _) mAcc (Memref.isWhole_whole _) c1 c2 c3 c4 (iblk m c 0 t) (iblk m c 1 t) (iblk m c 2 t) (iblk m c 3 t) S0 ((dats m 0 c).before 4 t d4)).2.2 Set.univ _)
      isplitl [H0]; · iexact H0
      isplitl [H1]; · iexact H1
      isplitl [H2]; · iexact H2
      isplitl [H3]; · iexact H3
      isplitl [H4]; · iexact H4
      isplitl [HS]; · iexact HS
      isplitl [HA]; · iexists _; iexact HA
      iintro ⟨H0, H1, H2, H3, H4, HS, ⟨%f8, HA⟩⟩
      isplitl [HS HA Hg]
      · isplitl [HS HA]
        · isplitl [HS]
          · iexists _; isplitr
            swap
            · unfold owns; iexists _; isplitr
              swap; · iexact HS
              ipureintro; rfl
            ipureintro
            intro h h2 hlt
            obtain rfl : h = t := Fin.ext (by omega)
            exact (runFirst_kept_same ((dats m 0 c).before 4 h d4) c (grid0.coords h) (mX h) (hX h) (mW h) (hW h) (mB h) (hB h) (mA h) (hA h) (mO h) (hO h) mS (Memref.isWhole_whole _) mAcc (Memref.isWhole_whole _) (iblk m c 0 h) (iblk m c 1 h) (iblk m c 2 h) (iblk m c 3 h) S0 c1 c2 c3 c4).trans (by
              unfold supBlk; rw [blkX_eq m c h, blkW_eq m c h])
          · unfold owns; iexists _; isplitr
            swap; · iexact HA
            ipureintro
            exact (runFirst_sum ((dats m 0 c).before 4 t d4) c (grid0.coords t) (mX t) (hX t) (mW t) (hW t) (mB t) (hB t) (mA t) (hA t) (mO t) (hO t) mS (Memref.isWhole_whole _) mAcc (Memref.isWhole_whole _) (iblk m c 0 t) (iblk m c 1 t) (iblk m c 2 t) (iblk m c 3 t) S0 c1 c2 c3 c4 f8).trans (by
              rw [hacc]; unfold accStart supBlk; rw [blkX_eq m c t, blkW_eq m c t])
        · iexact Hg
      isplitl [Ho]; · iexact Ho
      isplitl [H0]; · iexact H0
      isplitl [H1]; · iexact H1
      isplitl [H2]; · iexact H2
      isplitl [H3]; · iexact H3
      iexists d4; iexact H4
    · -- the first half of a later row block
      have c1 : ¬firstRow (grid0.coords t) := fun h => hr ((firstRow_iff t).mp h)
      have hz : t.val ≠ 0 := by omega
      rw [Phi_pos m c _ hz]
      iintro ⟨⟨⟨⟨%S0, %hS0, HS⟩, HA⟩, Hg⟩, Ho, ⟨%d0, H0⟩, ⟨%d1, H1⟩, ⟨%d2, H2⟩, ⟨%d3, H3⟩, ⟨%d4, H4⟩⟩
      iapply ((runStart c (grid0.coords t) (mX t) (hX t) (mW t) (hW t) (mB t) (hB t) (mA t) (hA t) (mO t) (hO t) mS (Memref.isWhole_whole _) mAcc (Memref.isWhole_whole _) c1 c2 c3 c4 (iblk m c 0 t) (iblk m c 1 t) (iblk m c 2 t) (iblk m c 3 t) S0 ((dats m 0 c).before 4 t d4)).2 Set.univ _)
      isplitl [H0]; · iexact H0
      isplitl [H1]; · iexact H1
      isplitl [H2]; · iexact H2
      isplitl [H3]; · iexact H3
      isplitl [H4]; · iexact H4
      isplitl [HS]; · iexact HS
      isplitl [HA]; · iexists _; iexact HA
      iintro ⟨H0, H1, H2, H3, H4, HS, ⟨%f8, HA⟩⟩
      isplitl [HS HA Hg]
      · isplitl [HS HA]
        · isplitl [HS]
          · iexists S0; isplitr
            · ipureintro; exact fun h h2 _ => hS0 h h2 (by omega)
            iexact HS
          · unfold owns; iexists _; isplitr
            swap; · iexact HA
            ipureintro
            exact (runStart_sum ((dats m 0 c).before 4 t d4) c (grid0.coords t) (mX t) (hX t) (mW t) (hW t) (mB t) (hB t) (mA t) (hA t) (mO t) (hO t) mS (Memref.isWhole_whole _) mAcc (Memref.isWhole_whole _) (iblk m c 0 t) (iblk m c 1 t) (iblk m c 2 t) (iblk m c 3 t) S0 c1 c2 c3 c4 f8).trans (by
              rw [hacc, kept_at m c t.val S0 hS0 (by omega) t]; rfl)
        · iexact Hg
      isplitl [Ho]; · iexact Ho
      isplitl [H0]; · iexact H0
      isplitl [H1]; · iexact H1
      isplitl [H2]; · iexact H2
      isplitl [H3]; · iexact H3
      iexists d4; iexact H4
  · -- a last-half point: the output block is finished and stored
    have hk' : t.val % 2 = 1 := by omega
    rw [show (dats m 0 c).leavesExact 4 t = owns (c : Thread nD τ) (mO t) fullShare (outBlk m c t) from by
      unfold Dat.leavesExact; rw [live_out t hk', after_out]]
    have c2 : ¬firstHalf (grid0.coords t) := fun h => hk ((firstHalf_iff t).mp h)
    have c3 : laterHalf (grid0.coords t) := (laterHalf_iff t).mpr hk'
    have c4 : lastHalf (grid0.coords t) := (lastHalf_iff t).mpr hk'
    have hz : t.val ≠ 0 := by omega
    have hprev : accBlk m c (pt (t.val - 1)) = accStart m c (pt (t.val - 1)) := (show accBlk m c (pt (t.val - 1)) = accStart m c (pt (t.val - 1)) from by
            unfold accBlk; rw [if_pos (by rw [pt_val' _ (by omega)]; omega)])
    have hacc : accBlk m c t = k0_pay4 (iblk m c 3 t) (supBlk m c t) (accBlk m c (pt (t.val - 1))) := by
      rw [hprev]; unfold accBlk; rw [if_neg hk]
    rw [Phi_pos m c _ hz]
    by_cases hr : t.val < 2
    · -- the second point
      have c1 : firstRow (grid0.coords t) := (firstRow_iff t).mpr hr
      iintro ⟨⟨⟨⟨%S0, %hS0, HS⟩, HA⟩, Hg⟩, Ho, ⟨%d0, H0⟩, ⟨%d1, H1⟩, ⟨%d2, H2⟩, ⟨%d3, H3⟩, ⟨%d4, H4⟩⟩
      iapply ((runSecond c (grid0.coords t) (mX t) (hX t) (mW t) (hW t) (mB t) (hB t) (mA t) (hA t) (mO t) (hO t) mS (Memref.isWhole_whole _) mAcc (Memref.isWhole_whole _) c1 c2 c3 c4 (iblk m c 0 t) (iblk m c 1 t) (iblk m c 2 t) (iblk m c 3 t) S0 (accBlk m c (pt (t.val - 1)))).2.2.2 Set.univ _)
      isplitl [H0]; · iexact H0
      isplitl [H1]; · iexact H1
      isplitl [H2]; · iexact H2
      isplitl [H3]; · iexact H3
      isplitl [H4]; · iexists _; iexact H4
      isplitl [HS]; · iexact HS
      isplitl [HA]; · iexact HA
      iintro ⟨H0, H1, H2, H3, ⟨%f6, H4⟩, HS, ⟨%f8, HA⟩⟩
      have hsup : slice (iblk m c 0 t) (iblk m c 1 t) (k0_off2 (grid0.coords t)) (k0_off2_inb _) = supBlk m c t := by
        unfold supBlk; rw [blkX_eq m c t, blkW_eq m c t]
      isplitl [HS HA Hg]
      · isplitl [HS HA]
        · isplitl [HS]
          · iexists _; isplitr
            swap
            · unfold owns; iexists _; isplitr
              swap; · iexact HS
              ipureintro; rfl
            ipureintro
            intro h h2 hlt
            by_cases hht : h = t
            · subst hht
              exact (runSecond_kept_same c (grid0.coords h) (mX h) (hX h) (mW h) (hW h) (mB h) (hB h) (mA h) (hA h) (mO h) (hO h) mS (Memref.isWhole_whole _) mAcc (Memref.isWhole_whole _) (iblk m c 0 h) (iblk m c 1 h) (iblk m c 2 h) (iblk m c 3 h) S0 (accBlk m c (pt (h.val - 1))) c1 c2 c3 c4).trans hsup
            · have hh0 : h.val = 0 := by
                have : h.val ≠ t.val := fun e => hht (Fin.ext e)
                omega
              have e1 : k0_off2 (grid0.coords t) 0 = 4096 * (t.val % 2) := by rw [off2_eq t]; rfl
              have e2 : k0_off2 (grid0.coords h) 0 = 4096 * (h.val % 2) := by rw [off2_eq h]; rfl
              have e3 : S4096x128.size 0 = 4096 := rfl
              exact (runSecond_kept_apart c (grid0.coords t) (mX t) (hX t) (mW t) (hW t) (mB t) (hB t) (mA t) (hA t) (mO t) (hO t) mS (Memref.isWhole_whole _) mAcc (Memref.isWhole_whole _) (iblk m c 0 t) (iblk m c 1 t) (iblk m c 2 t) (iblk m c 3 t) S0 (accBlk m c (pt (t.val - 1))) c1 c2 c3 c4
                (k0_off2 (grid0.coords h)) (k0_off2_inb _) (by rw [e1, e2, e3]; omega)).trans (hS0 h h2 (by omega))
          · unfold owns; iexists _; isplitr
            swap; · iexact HA
            ipureintro
            exact (runSecond_sum c (grid0.coords t) (mX t) (hX t) (mW t) (hW t) (mB t) (hB t) (mA t) (hA t) (mO t) (hO t) mS (Memref.isWhole_whole _) mAcc (Memref.isWhole_whole _) (iblk m c 0 t) (iblk m c 1 t) (iblk m c 2 t) (iblk m c 3 t) S0 (accBlk m c (pt (t.val - 1))) c1 c2 c3 c4 f8).trans (by
              rw [hacc, hsup])
        · iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (runSecond_out c (grid0.coords t) (mX t) (hX t) (mW t) (hW t) (mB t) (hB t) (mA t) (hA t) (mO t) (hO t) mS (Memref.isWhole_whole _) mAcc (Memref.isWhole_whole _) (iblk m c 0 t) (iblk m c 1 t) (iblk m c 2 t) (iblk m c 3 t) S0 (accBlk m c (pt (t.val - 1))) c1 c2 c3 c4 f6).trans (by
        unfold outBlk; rw [hacc, hsup, blkX_eq m c t, blkB_eq m c t])
    · -- the last half of a later row block
      have c1 : ¬firstRow (grid0.coords t) := fun h => hr ((firstRow_iff t).mp h)
      iintro ⟨⟨⟨⟨%S0, %hS0, HS⟩, HA⟩, Hg⟩, Ho, ⟨%d0, H0⟩, ⟨%d1, H1⟩, ⟨%d2, H2⟩, ⟨%d3, H3⟩, ⟨%d4, H4⟩⟩
      iapply ((runFinish c (grid0.coords t) (mX t) (hX t) (mW t) (hW t) (mB t) (hB t) (mA t) (hA t) (mO t) (hO t) mS (Memref.isWhole_whole _) mAcc (Memref.isWhole_whole _) c1 c2 c3 c4 (iblk m c 0 t) (iblk m c 1 t) (iblk m c 2 t) (iblk m c 3 t) S0 (accBlk m c (pt (t.val - 1)))).2.2 Set.univ _)
      isplitl [H0]; · iexact H0
      isplitl [H1]; · iexact H1
      isplitl [H2]; · iexact H2
      isplitl [H3]; · iexact H3
      isplitl [H4]; · iexists _; iexact H4
      isplitl [HS]; · iexact HS
      isplitl [HA]; · iexact HA
      iintro ⟨H0, H1, H2, H3, ⟨%f6, H4⟩, HS, ⟨%f8, HA⟩⟩
      have hsup : bigRows S0 (k0_off2 (grid0.coords t)) (k0_off2_inb _) = supBlk m c t :=
        kept_at m c t.val S0 hS0 (by omega) t
      isplitl [HS HA Hg]
      · isplitl [HS HA]
        · isplitl [HS]
          · iexists S0; isplitr
            · ipureintro; exact fun h h2 _ => hS0 h h2 (by omega)
            iexact HS
          · unfold owns; iexists _; isplitr
            swap; · iexact HA
            ipureintro
            exact (runFinish_sum c (grid0.coords t) (mX t) (hX t) (mW t) (hW t) (mB t) (hB t) (mA t) (hA t) (mO t) (hO t) mS (Memref.isWhole_whole _) mAcc (Memref.isWhole_whole _) (iblk m c 0 t) (iblk m c 1 t) (iblk m c 2 t) (iblk m c 3 t) S0 (accBlk m c (pt (t.val - 1))) c1 c2 c3 c4 f8).trans (by
              rw [hacc, hsup])
        · iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (runFinish_out c (grid0.coords t) (mX t) (hX t) (mW t) (hW t) (mB t) (hB t) (mA t) (hA t) (mO t) (hO t) mS (Memref.isWhole_whole _) mAcc (Memref.isWhole_whole _) (iblk m c 0 t) (iblk m c 1 t) (iblk m c 2 t) (iblk m c 3 t) S0 (accBlk m c (pt (t.val - 1))) c1 c2 c3 c4 f6).trans (by
        unfold outBlk; rw [hacc, hsup, blkX_eq m c t, blkB_eq m c t])

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 from rfl, Phi_zero]

/-- After the last point the named contents of the kept buffers are forgotten again. -/
theorem hout (c : Dev nD) : (dats m 0 c).Φ (Fin.last cfg0.N) ⊢ Pipeline.ΦA spec0 c := by
  rw [show (dats m 0 c).Φ (Fin.last cfg0.N) = Phi m c (Fin.last cfg0.N).val from rfl,
    Phi_pos m c _ (by rw [Fin.val_last, N_eq]; decide), PhiA_eq]
  iintro ⟨⟨⟨%S, -, HS⟩, HA⟩, Hg⟩
  isplitl [HS HA]
  · isplitl [HS]; · iexists _; iexact HS
    iexists _; iexact HA
  iexact Hg

set_option backward.isDefEq.respectTransparency.types false in
/-- Every weakly fair execution of @main ends, faulting nowhere, with every array of the pipeline at what the library
    computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to its end and its four argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.LibGcnLayer.lean ====
/-
  A graph-convolution layer with a residual connection, on the extended reals, over any sizes: for node features x
  (n × d), an adjacency matrix adj (n × n), a weight matrix W (d × d) and a bias b (d),
      layer x adj W b (r, q) = tanh ((Σ_k adj (r, k) · (Σ_l x (k, l) · W (l, q)) + b q) + x (r, q)),
  with the inner sum named `support` (x·W) and the outer `agg` (adj·(x·W)). Only + and · of extended reals occur
  under the sums, so regrouping the neighbours needs no finiteness: a sum over h + h neighbours is the sum over the
  first h plus the sum over the last h.
-/
import Idealize.ShloMosaic.PureOps.Ideal
import Idealize.ShloMosaic.PureOps.Ideal.Laws
import Idealize.ShloMosaic.Lib.ValueIdx
import Mathlib.Algebra.BigOperators.Fin

noncomputable section

namespace Cert.GcnLayer

open Idealize.ShloMosaic Idealize.ShloMosaic.ValueIdx

variable {n d : ℕ}

/-- (x·W) (k, q). -/
def support (x : (⟨2, ![n, d]⟩ : Shape).Idx → EReal) (W : (⟨2, ![d, d]⟩ : Shape).Idx → EReal) (k : Fin n) (q : Fin d) : EReal :=
  ∑ l : Fin d, x (ix2 k l) * W (ix2 l q)

/-- (adj·(x·W)) (r, q). -/
def agg (x : (⟨2, ![n, d]⟩ : Shape).Idx → EReal) (adj : (⟨2, ![n, n]⟩ : Shape).Idx → EReal)
    (W : (⟨2, ![d, d]⟩ : Shape).Idx → EReal) (r : Fin n) (q : Fin d) : EReal :=
  ∑ k : Fin n, adj (ix2 r k) * support x W k q

/-- The layer at row r and feature q. -/
def entry (x : (⟨2, ![n, d]⟩ : Shape).Idx → EReal) (adj : (⟨2, ![n, n]⟩ : Shape).Idx → EReal)
    (W : (⟨2, ![d, d]⟩ : Shape).Idx → EReal) (b : (⟨1, ![d]⟩ : Shape).Idx → EReal) (r : Fin n) (q : Fin d) : EReal :=
  Ideal.tanh ((agg x adj W r q + b (ix1 q)) + x (ix2 r q))

/-- The layer as one array. -/
def layer (x : (⟨2, ![n, d]⟩ : Shape).Idx → EReal) (adj : (⟨2, ![n, n]⟩ : Shape).Idx → EReal)
    (W : (⟨2, ![d, d]⟩ : Shape).Idx → EReal) (b : (⟨1, ![d]⟩ : Shape).Idx → EReal) : (⟨2, ![n, d]⟩ : Shape).Idx → EReal :=
  fun i => entry x adj W b (i 0) (i 1)

/-- A sum over h + h terms is the sum of its first h terms plus the sum of its last h. -/
theorem sum_two_halves (h : ℕ) (f : Fin (h + h) → EReal) :
    ∑ k, f k = ∑ j : Fin h, f (Fin.castAdd h j) + ∑ j : Fin h, f (Fin.natAdd h j) :=
  Fin.sum_univ_add f

end Cert.GcnLayer

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.KI.ValueAt.lean ====
/-
  The output block a last-half point stores, read entry by entry on the extended reals, is the layer.
  Entry (p, q) of row block B = t / 2 is tanh of (running sum + bias q + x (512·B + p, q)), and the running sum after
  the block's two points is
      Σ_{j < 4096} adj (R, j) · (x·W) (j, q)  +  Σ_{j < 4096} adj (R, 4096 + j) · (x·W) (4096 + j, q),   R = 512·B + p,
  the first sum left by the first-half point and the second added by the last-half point: together the sum over all
  8192 neighbours. Each matrix product is a plain sum of products at an entry; an adjacency block's entry and a
  row-range's entry are the arrays' entries at the block's and the range's offsets.
-/
import proofs.«106130_g44306882625938_cont_8to1_c_1080_8_alg».proof.Proof.KI.Sound
import proofs.«106130_g44306882625938_cont_8to1_c_1080_8_alg».proof.Proof.LibGcnLayer
import proofs.«106130_g44306882625938_cont_8to1_c_1080_8_alg».proof.Proof.LibPlainMatmul
import Idealize.ShloMosaic.Lib.Pipeline.Value
import Idealize.ShloMosaic.Lib.ValueIdx
import Idealize.ShloMosaic.Lib.StableHlo.Run

set_option maxRecDepth 16384

noncomputable section

namespace Cert.KernelIdeal.ValueAt

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body Idealize.ShloMosaic.ValueIdx Cert.GcnLayer

variable (m : (ℓ : Loc nD τ sig) → Buf (Elt Ideal) ℓ) (c : Dev nD)

/-- The four arrays as the region finds them: x, the adjacency matrix, W, the bias. -/
abbrev x : S8192x128.Idx → EReal := V m c main_arg0
abbrev adj : S8192x8192.Idx → EReal := V m c main_arg1
abbrev W : S128x128.Idx → EReal := V m c main_arg2
abbrev b : S128.Idx → EReal := V m c main_arg3

/-! ## The payloads at an entry -/

theorem pay2_apply (A : Vec Ideal S512x4096 .f32) (S : Vec Ideal S4096x128 .f32) (p : Fin 512) (q : Fin 128) :
    k0_pay2 A S (ix2 p q) = ∑ j : Fin 4096, A (ix2 p j) * S (ix2 j q) :=
  Cert.PlainMatmul.matmul_zero_apply 512 4096 128 none A S p q

theorem pay1_apply (R : Vec Ideal S4096x128 .f32) (Wm : Vec Ideal S128x128 .f32) (j : Fin 4096) (q : Fin 128) :
    k0_pay1 R Wm (ix2 j q) = ∑ l : Fin 128, R (ix2 j l) * Wm (ix2 l q) := by
  unfold k0_pay1; rw [shapeCast_self]
  exact Cert.PlainMatmul.matmul_zero_apply 4096 128 128 none R Wm j q

theorem pay3_apply (A : Vec Ideal S512x4096 .f32) (S : Vec Ideal S4096x128 .f32) (p : Fin 512) (q : Fin 128) :
    k0_pay3 A S (ix2 p q) = ∑ j : Fin 4096, A (ix2 p j) * S (ix2 j q) := by
  unfold k0_pay3; rw [shapeCast_self]; exact pay2_apply A S p q

theorem pay4_apply (A : Vec Ideal S512x4096 .f32) (S : Vec Ideal S4096x128 .f32) (Acc : Vec Ideal S512x128 .f32) (p : Fin 512) (q : Fin 128) :
    k0_pay4 A S Acc (ix2 p q) = Acc (ix2 p q) + ∑ j : Fin 4096, A (ix2 p j) * S (ix2 j q) := by
  unfold k0_pay4; rw [shapeCast_self]
  show Acc (ix2 p q) + k0_pay2 A S (ix2 p q) = _
  rw [pay2_apply]

theorem pay5_apply (Xb : Vec Ideal S512x128 .f32) (Acc : Vec Ideal S512x128 .f32) (Brow : Vec Ideal S1x128 .f32) (p : Fin 512) (q : Fin 128) :
    k0_pay5 Xb Acc Brow (ix2 p q) = Ideal.tanh ((Acc (ix2 p q) + Brow (ix2 (0 : Fin 1) q)) + Xb (ix2 p q)) := by
  unfold k0_pay5; rw [shapeCast_self]
  show Ideal.tanh ((Acc (ix2 p q) + broadcastTo S512x128 Brow broadcasts_S1x128_S512x128 (ix2 p q)) + Xb (ix2 p q)) = _
  rw [broadcastTo_apply Brow broadcasts_S1x128_S512x128 (ix2 p q) (ix2 (0 : Fin 1) q) (fun a => match a with
    | ⟨0, _⟩ => by show (0 : ℕ) = if (1 : ℕ) = 1 then 0 else p.val; rw [if_pos rfl]
    | ⟨1, _⟩ => by show q.val = if (128 : ℕ) = 1 then 0 else q.val; rw [if_neg (by decide)])]

/-! ## Row ranges and blocks as the arrays' entries -/

theorem bigRows_apply (Y : Vec Ideal S8192x128 .f32) (o : Fin 2 → ℕ) (inb : ∀ a, o a + S4096x128.size a ≤ S8192x128.size a)
    (j : Fin 4096) (l : Fin 128) (i' : S8192x128.Idx) (h0 : (i' 0).val = o 0 + j.val) (h1 : (i' 1).val = o 1 + l.val) :
    bigRows Y o inb (ix2 j l) = Y i' := by
  show Y ((Rect.unit (s := S8192x128) o S4096x128.size inb).idx (ix2 j l)) = Y i'
  congr 1; funext a; apply Fin.ext
  match a with
  | ⟨0, _⟩ => show o 0 + 1 * j.val = (i' 0).val; omega
  | ⟨1, _⟩ => show o 1 + 1 * l.val = (i' 1).val; omega

theorem blkRows_apply (Y : Vec Ideal S8192x128 .f32) (o : Fin 2 → ℕ) (inb : ∀ a, o a + S512x128.size a ≤ S8192x128.size a)
    (p : Fin 512) (q : Fin 128) (i' : S8192x128.Idx) (h0 : (i' 0).val = o 0 + p.val) (h1 : (i' 1).val = o 1 + q.val) :
    blkRows Y o inb (ix2 p q) = Y i' := by
  show Y ((Rect.unit (s := S8192x128) o S512x128.size inb).idx (ix2 p q)) = Y i'
  congr 1; funext a; apply Fin.ext
  match a with
  | ⟨0, _⟩ => show o 0 + 1 * p.val = (i' 0).val; omega
  | ⟨1, _⟩ => show o 1 + 1 * q.val = (i' 1).val; omega

/-- The printed index maps, decided over the grid: the adjacency block of point t is block (t / 2, t % 2), the output
    block is row block t / 2, and x, W and the bias row sit at block (0, 0). -/
theorem idx_facts : ∀ t : Fin cfg0.N, win0_3.index t (0 : Fin 2) = t.val / 2 ∧ win0_3.index t (1 : Fin 2) = t.val % 2
    ∧ win0_4.index t (0 : Fin 2) = t.val / 2 ∧ win0_4.index t (1 : Fin 2) = 0
    ∧ win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The adjacency block of point t. -/
abbrev adjBlk (t : Fin cfg0.N) : Vec Ideal S512x4096 .f32 := iblk m c 3 t

theorem adjBlk_apply (t : Fin cfg0.N) (p : Fin 512) (j : Fin 4096) (i' : S8192x8192.Idx)
    (h0 : (i' 0).val = 512 * (t.val / 2) + p.val) (h1 : (i' 1).val = 4096 * (t.val % 2) + j.val) :
    adjBlk m c t (ix2 p j) = adj m c i' := by
  show V m c main_arg1 (((cfg0.win 3).blk t).view.emb (ix2 p j)) = V m c main_arg1 i'
  obtain ⟨e0, e1, -⟩ := idx_facts t
  congr 1; funext a; apply Fin.ext
  match a with
  | ⟨0, _⟩ => show win0_3.index t (0 : Fin 2) * 512 + 1 * p.val = (i' 0).val; rw [e0]; omega
  | ⟨1, _⟩ => show win0_3.index t (1 : Fin 2) * 4096 + 1 * j.val = (i' 1).val; rw [e1]; omega

theorem aX_eq : aX m c = x m c := by
  funext j
  show V m c main_arg0 (((cfg0.win 0).blk (pt 0)).view.emb j) = V m c main_arg0 j
  obtain ⟨-, -, -, -, e0, e1, -⟩ := idx_facts (pt 0)
  congr 1; funext a; apply Fin.ext
  match a with
  | ⟨0, _⟩ => show win0_0.index (pt 0) (0 : Fin 2) * 8192 + 1 * (j 0).val = (j 0).val; rw [e0]; omega
  | ⟨1, _⟩ => show win0_0.index (pt 0) (1 : Fin 2) * 128 + 1 * (j 1).val = (j 1).val; rw [e1]; omega

theorem aW_eq : aW m c = W m c := by
  funext j
  show V m c main_arg2 (((cfg0.win 1).blk (pt 0)).view.emb j) = V m c main_arg2 j
  obtain ⟨-, -, -, -, -, -, e0, e1, -⟩ := idx_facts (pt 0)
  congr 1; funext a; apply Fin.ext
  match a with
  | ⟨0, _⟩ => show win0_1.index (pt 0) (0 : Fin 2) * 128 + 1 * (j 0).val = (j 0).val; rw [e0]; omega
  | ⟨1, _⟩ => show win0_1.index (pt 0) (1 : Fin 2) * 128 + 1 * (j 1).val = (j 1).val; rw [e1]; omega

/-- The bias row the kernel is handed is the bias laid out as one row: entry (0, q) is b q. -/
theorem aB_apply (q : Fin 128) : aB m c (ix2 (0 : Fin 1) q) = b m c (ix1 q) := by
  show V m c main_v0 (((cfg0.win 2).blk (pt 0)).view.emb (ix2 (0 : Fin 1) q)) = V m c main_arg3 (ix1 q)
  obtain ⟨-, -, -, -, -, -, -, -, e0, e1⟩ := idx_facts (pt 0)
  have hemb : ((cfg0.win 2).blk (pt 0)).view.emb (ix2 (0 : Fin 1) q) = (ix2 (0 : Fin 1) q : S1x128.Idx) := by
    funext a; apply Fin.ext
    match a with
    | ⟨0, _⟩ => show win0_2.index (pt 0) (0 : Fin 2) * 1 + 1 * 0 = 0; rw [e0]
    | ⟨1, _⟩ => show win0_2.index (pt 0) (1 : Fin 2) * 128 + 1 * q.val = q.val; rw [e1]; omega
  rw [hemb]
  have e : (V m c main_v0 : S1x128.Idx → EReal) = shapeCast S1x128 (V m c main_arg3 : S128.Idx → EReal) shapeCasts_S128_S1x128 := by
    dsimp only [Gen.V, Gen.hostOps0]; after_results; rfl
  rw [e]
  exact shapeCast_apply _ shapeCasts_S128_S1x128 (ix2 (0 : Fin 1) q) (ix1 q) (by
    rw [Shape.rowMajor_val_one, Shape.rowMajor_val_two]
    show q.val = 0 * 128 + q.val; omega)

/-! ## The half's slice, the running sum and the output block at an entry -/

theorem supBlk_apply (t : Fin cfg0.N) (j : Fin 4096) (q : Fin 128) (k : Fin 8192) (hk : k.val = 4096 * (t.val % 2) + j.val) :
    supBlk m c t (ix2 j q) = support (n := 8192) (d := 128) (x m c) (W m c) k q := by
  unfold supBlk slice; rw [pay1_apply]; unfold support
  have o0 : k0_off2 (grid0.coords t) 0 = 4096 * (t.val % 2) := by rw [off2_eq t]; rfl
  have o1 : k0_off2 (grid0.coords t) 1 = 0 := by rw [off2_eq t]; rfl
  refine Finset.sum_congr rfl fun l _ => ?_
  rw [bigRows_apply (aX m c) _ _ j l (ix2 k l) (by show k.val = _; rw [o0]; exact hk) (by show l.val = _; rw [o1]; omega),
    aX_eq, aW_eq]

theorem part_apply (t : Fin cfg0.N) (p : Fin 512) (q : Fin 128) (r : Fin 8192) (hr : r.val = 512 * (t.val / 2) + p.val)
    (e : Fin 4096 → Fin 8192) (he : ∀ j : Fin 4096, (e j).val = 4096 * (t.val % 2) + j.val) :
    ∑ j : Fin 4096, adjBlk m c t (ix2 p j) * supBlk m c t (ix2 j q)
      = ∑ j : Fin 4096, adj m c (ix2 r (e j)) * support (n := 8192) (d := 128) (x m c) (W m c) (e j) q :=
  Finset.sum_congr rfl fun j _ => by
    rw [adjBlk_apply m c t p j (ix2 r (e j)) hr (he j), supBlk_apply m c t j q (e j) (he j)]

/-- After a row block's two points the running sum is the whole aggregation over the 8192 neighbours. -/
theorem acc_apply (t : Fin cfg0.N) (ht : t.val % 2 = 1) (p : Fin 512) (q : Fin 128) (r : Fin 8192)
    (hr : r.val = 512 * (t.val / 2) + p.val) :
    accBlk m c t (ix2 p q) = agg (n := 8192) (d := 128) (x m c) (adj m c) (W m c) r q := by
  have hN : t.val < 32 := lt_of_lt_of_eq t.isLt N_eq
  have hprev : (pt (t.val - 1)).val = t.val - 1 := pt_val' _ (by omega)
  unfold accBlk; rw [if_neg (by omega)]
  rw [pay4_apply]; unfold accStart; rw [pay3_apply]
  rw [part_apply m c t p q r hr (Fin.natAdd 4096) (fun j => by show 4096 + j.val = 4096 * (t.val % 2) + j.val; omega)]
  rw [part_apply m c (pt (t.val - 1)) p q r (by rw [hprev]; omega) (Fin.castAdd 4096) (fun j => by
    show j.val = 4096 * ((pt (t.val - 1)).val % 2) + j.val; rw [hprev]; omega)]
  unfold agg
  exact (sum_two_halves 4096 (fun k => adj m c (ix2 r k) * support (n := 8192) (d := 128) (x m c) (W m c) k q)).symm

/-- THE OUTPUT BLOCK of a last-half point, entry by entry, is the layer's entry at row 512·(t / 2) + p. -/
theorem out_apply (t : Fin cfg0.N) (ht : t.val % 2 = 1) (p : Fin 512) (q : Fin 128) (r : Fin 8192)
    (hr : r.val = 512 * (t.val / 2) + p.val) :
    outBlk m c t (ix2 p q) = entry (n := 8192) (d := 128) (x m c) (adj m c) (W m c) (b m c) r q := by
  have o0 : k0_off3 (grid0.coords t) 0 = 512 * (t.val / 2) := by rw [off3_eq t]; rfl
  have o1 : k0_off3 (grid0.coords t) 1 = 0 := by rw [off3_eq t]; rfl
  unfold outBlk; rw [pay5_apply, acc_apply m c t ht p q r hr, aB_apply,
    blkRows_apply (aX m c) _ _ p q (ix2 r q) (by show r.val = _; rw [o0]; exact hr) (by show q.val = _; rw [o1]; omega), aX_eq]
  rfl

end Cert.KernelIdeal.ValueAt

end
-- ==== Proof.KI.Value.lean ====
/-
  The kernel's result array after the run is the layer of its four arguments. The output's block is written back at
  the last-half points only (the odd ones), and what point t writes back is rows 512·(t / 2) .. +511 of the layer;
  those sixteen row blocks cover the 8192 rows (row R lies in the block of point 2·(R / 512) + 1), so the array ends
  at the layer everywhere. The arguments end as launched.
-/
import proofs.«106130_g44306882625938_cont_8to1_c_1080_8_alg».proof.Proof.KI.ValueAt

set_option maxRecDepth 16384

noncomputable section

namespace Cert.KernelIdeal.ValueAt

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body Idealize.ShloMosaic.ValueIdx Cert.GcnLayer

variable (m : (ℓ : Loc nD τ sig) → Buf (Elt Ideal) ℓ) (ρ : Dev nD → PrngReg)

/-- The layer of the arrays as the region finds them. -/
abbrev G (c : Dev nD) : S8192x128.Idx → EReal :=
  layer (n := 8192) (d := 128) (x m c) (adj m c) (W m c) (b m c)

/-- What a last-half point writes back is its row block of the layer. -/
theorem flushed_eq (c : Dev nD) (t : Fin cfg0.N) (hf : (cfg0.win 4).flush t = true) :
    (dats m 0 c).flushed 4 t = ((cfg0.win 4).blk t).view.read (Elt Ideal) (G m c) := by
  have ht : t.val % 2 = 1 := (flush0_4 t).mp hf
  have hN : t.val < 32 := lt_of_lt_of_eq t.isLt N_eq
  obtain ⟨-, -, e0, e1, -⟩ := idx_facts t
  show (cfg0.win 4).cut (grid0.coords t) ((dats m 0 c).after 4 t) = _
  rw [after_out]
  funext y
  obtain ⟨p, q, rfl⟩ : ∃ (p : Fin 512) (q : Fin 128), y = ix2 p q := ⟨y 0, y 1, eq_ix2 y⟩
  have hp : p.val < 512 := p.isLt
  show outBlk m c t (ix2 p q) = G m c (((cfg0.win 4).blk t).view.emb (ix2 p q))
  have h0 : (((cfg0.win 4).blk t).view.emb (ix2 p q)) 0 = (⟨512 * (t.val / 2) + p.val, by omega⟩ : Fin 8192) := Fin.ext (by
    show win0_4.index t (0 : Fin 2) * 512 + 1 * p.val = 512 * (t.val / 2) + p.val; rw [e0]; omega)
  have h1 : (((cfg0.win 4).blk t).view.emb (ix2 p q)) 1 = q := Fin.ext (by
    show win0_4.index t (1 : Fin 2) * 128 + 1 * q.val = q.val; rw [e1]; omega)
  exact (out_apply m c t ht p q ⟨512 * (t.val / 2) + p.val, by omega⟩ rfl).trans
    (congrArg₂ (entry (n := 8192) (d := 128) (x m c) (adj m c) (W m c) (b m c)) h0.symm h1.symm)

/-- An index of the array is in point t's block iff each coordinate is in the block's range on its axis. -/
theorem mem_blk (t : Fin cfg0.N) (i : S8192x128.Idx) :
    i ∈ ((cfg0.win 4).blk t).view.set ↔ ∀ a : Fin 2, win0_4.index t a * S512x128.size a ≤ (i a).val ∧ (i a).val < win0_4.index t a * S512x128.size a + S512x128.size a := by
  show i ∈ ((View.whole main_v1).slice (win0_4.rect t)).set ↔ _
  rw [View.set_slice_whole, Rect.mem_set_unit]
  exact Iff.rfl

/-- Every index of the array lies in the block some last-half point writes back. -/
theorem cover (i : S8192x128.Idx) : ∃ t : Fin cfg0.N, (cfg0.win 4).flush t = true ∧ i ∈ ((cfg0.win 4).blk t).view.set := by
  have hi0 : (i 0).val < 8192 := (i 0).isLt
  have hi1 : (i 1).val < 128 := (i 1).isLt
  have hlt : 2 * ((i 0).val / 512) + 1 < cfg0.N := by rw [N_eq]; omega
  obtain ⟨-, -, e0, e1, -⟩ := idx_facts ⟨2 * ((i 0).val / 512) + 1, hlt⟩
  refine ⟨⟨2 * ((i 0).val / 512) + 1, hlt⟩, (flush0_4 _).mpr (by show (2 * ((i 0).val / 512) + 1) % 2 = 1; omega), ?_⟩
  rw [mem_blk]
  intro a
  match a with
  | ⟨0, _⟩ =>
    show win0_4.index ⟨2 * ((i 0).val / 512) + 1, hlt⟩ (0 : Fin 2) * 512 ≤ (i 0).val ∧ (i 0).val < win0_4.index ⟨2 * ((i 0).val / 512) + 1, hlt⟩ (0 : Fin 2) * 512 + 512
    rw [e0]; show (2 * ((i 0).val / 512) + 1) / 2 * 512 ≤ (i 0).val ∧ (i 0).val < (2 * ((i 0).val / 512) + 1) / 2 * 512 + 512; omega
  | ⟨1, _⟩ =>
    show win0_4.index ⟨2 * ((i 0).val / 512) + 1, hlt⟩ (1 : Fin 2) * 128 ≤ (i 1).val ∧ (i 1).val < win0_4.index ⟨2 * ((i 0).val / 512) + 1, hlt⟩ (1 : Fin 2) * 128 + 128
    rw [e1]; omega

/-- THE RESULT ARRAY after the run is the layer. -/
theorem final (c : Dev nD) : (dats m 0 c).arrAt 4 cfg0.N = G m c :=
  (dats m 0 c).arrAt_eq_of_cover 4 (G m c) (fun t hf => flushed_eq m c t hf) cover

/-- The run re-posted: the result at the layer of the arguments as launched, the arguments unchanged. -/
theorem run : θ_run defs (onTc (τ := τ) (main (F := Ideal))) ⟨m, fun _ => 0, ρ⟩ fun r => ∀ c : Dev nD,
      r.2.mem ((c.tc : Thread nD τ).loc main_v1)
        = layer (n := 8192) (d := 128) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 4).trans ((final m c).trans (by
        show layer (n := 8192) (d := 128) (V m c main_arg0) (V m c main_arg1) (V m c main_arg2) (V m c main_arg3) = _
        rw [V_main_arg0 m c, V_main_arg1 m c, V_main_arg2 m c, V_main_arg3 m c])),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c)⟩)
    (run_main (F := Ideal) m ρ)

end Cert.KernelIdeal.ValueAt

end
-- ==== Proof.RefValue.lean ====
/-
  The reference computes the graph-convolution layer: its seven host operations, read one at a time at an index,
  are the two matrix products as sums (x·W inside adj·(x·W)), the bias laid along the rows, the two additions and
  tanh — term by term the layer's entry.
-/
import proofs.«106130_g44306882625938_cont_8to1_c_1080_8_alg».proof.Proof.Gen.ReferenceIdeal.Read
import proofs.«106130_g44306882625938_cont_8to1_c_1080_8_alg».proof.Proof.LibGcnLayer

noncomputable section

namespace Cert.ReferenceIdeal.RefValue

open Cert.ReferenceIdeal Cert.ReferenceIdeal.Gen Cert.ReferenceIdeal.Read Idealize.ShloMosaic Idealize.ShloMosaic.ValueIdx

/-- The reference's result array is the layer of its four arguments. -/
theorem ref_eq_layer (x0 : (⟨S8192x128, .f32⟩ : BufTy).Contents (Elt Ideal)) (x1 : (⟨S8192x8192, .f32⟩ : BufTy).Contents (Elt Ideal))
    (x2 : (⟨S128x128, .f32⟩ : BufTy).Contents (Elt Ideal)) (x3 : (⟨S128, .f32⟩ : BufTy).Contents (Elt Ideal)) :
    val_main_v6 (F := Ideal) x0 x1 x2 x3 = Cert.GcnLayer.layer (n := 8192) (d := 128) x0 x1 x2 x3 := by
  funext i
  obtain ⟨r, q, rfl⟩ : ∃ (r : Fin 8192) (q : Fin 128), i = ix2 r q := ⟨i 0, i 1, eq_ix2 i⟩
  show val_main_v6 (F := Ideal) x0 x1 x2 x3 (ix2 r q) = Cert.GcnLayer.entry (n := 8192) (d := 128) x0 x1 x2 x3 r q
  have eL1 : ∀ k : Fin 8192, lidx_main_v1 (ix2 r q) k = ix2 r k := fun k => funext fun a => Fin.ext (by
    match a with | ⟨0, _⟩ => rfl | ⟨1, _⟩ => rfl)
  have eR1 : ∀ k : Fin 8192, ridx_main_v1 (ix2 r q) k = ix2 k q := fun k => funext fun a => Fin.ext (by
    match a with | ⟨0, _⟩ => rfl | ⟨1, _⟩ => rfl)
  have eL0 : ∀ (k : Fin 8192) (l : Fin 128), lidx_main_v0 (ix2 k q) l = ix2 k l := fun k l => funext fun a => Fin.ext (by
    match a with | ⟨0, _⟩ => rfl | ⟨1, _⟩ => rfl)
  have eR0 : ∀ (k : Fin 8192) (l : Fin 128), ridx_main_v0 (ix2 k q) l = ix2 l q := fun k l => funext fun a => Fin.ext (by
    match a with | ⟨0, _⟩ => rfl | ⟨1, _⟩ => rfl)
  have eB : idx_main_v2 (idx_main_v3 (ix2 r q)) = ix1 q := funext fun a => Fin.ext (by
    match a with | ⟨0, _⟩ => rfl)
  rw [val_main_v6_apply, val_main_v5_apply, val_main_v4_apply, val_main_v1_apply, val_main_v3_apply, val_main_v2_apply]
  simp only [eL1, eR1, val_main_v0_apply, eL0, eR0, eB, Ideal.hostUnary_tanh_def, Ideal.addf_def]
  rfl

end Cert.ReferenceIdeal.RefValue

end
-- ==== Proof.lean ====
/-
  A graph-convolution layer with a residual connection, tanh ((adj·(x·W) + b) + x), computed two ways.
  The kernel walks a 16 × 2 grid (row blocks of 512 rows by halves of the 8192 neighbours): at the first row block it
  computes each half of x·W once and keeps it; at every point it multiplies the point's 512 × 4096 block of adj by the
  half's kept product and starts (first half) or adds to (last half) a running sum; at a last-half point it adds the bias
  row and the row block of x, applies tanh and stores the output block. The reference computes the two matrix products
  whole. On the extended reals the two agree entry by entry: the kernel's two partial sums are the reference's one sum
  over all 8192 neighbours split in halves, which needs only that + of extended reals is associative and commutative —
  so the precondition (finite inputs) is never opened.
    * Both kernel programs' frames: the launch side is generated; the body's triple, the proof data and the invariant
      that carries the kept product and the running sum from point to point are Proof/KI and Proof/K (one text, read at
      either float instance).
    * The reference's frame is its generated run with the result dropped.
    * The idealization rewrote no operation, so nothing is to be preserved.
    * The value claim: Proof/KI/Value.lean (the kernel's result is the layer) against Proof/RefValue.lean (so is the
      reference's).
-/
import proofs.«106130_g44306882625938_cont_8to1_c_1080_8_alg».proof.Defs
import proofs.«106130_g44306882625938_cont_8to1_c_1080_8_alg».proof.Proof.Gen.Kernel
import proofs.«106130_g44306882625938_cont_8to1_c_1080_8_alg».proof.Proof.Gen.Kernel.Skeleton
import proofs.«106130_g44306882625938_cont_8to1_c_1080_8_alg».proof.Proof.Gen.Kernel.Launch
import proofs.«106130_g44306882625938_cont_8to1_c_1080_8_alg».proof.Proof.Gen.Kernel.Points
import proofs.«106130_g44306882625938_cont_8to1_c_1080_8_alg».proof.Proof.Gen.Kernel.Frame
import proofs.«106130_g44306882625938_cont_8to1_c_1080_8_alg».proof.Proof.Gen.KernelIdeal
import proofs.«106130_g44306882625938_cont_8to1_c_1080_8_alg».proof.Proof.Gen.KernelIdeal.Skeleton
import proofs.«106130_g44306882625938_cont_8to1_c_1080_8_alg».proof.Proof.Gen.KernelIdeal.Launch
import proofs.«106130_g44306882625938_cont_8to1_c_1080_8_alg».proof.Proof.Gen.KernelIdeal.Points
import proofs.«106130_g44306882625938_cont_8to1_c_1080_8_alg».proof.Proof.Gen.KernelIdeal.Frame
import proofs.«106130_g44306882625938_cont_8to1_c_1080_8_alg».proof.Proof.Gen.ReferenceIdeal
import proofs.«106130_g44306882625938_cont_8to1_c_1080_8_alg».proof.Proof.Gen.Pre_finite_inputs
import proofs.«106130_g44306882625938_cont_8to1_c_1080_8_alg».proof.Proof.Gen.ReferenceIdeal.Run
import proofs.«106130_g44306882625938_cont_8to1_c_1080_8_alg».proof.Proof.Gen.ReferenceIdeal.Read
import proofs.«106130_g44306882625938_cont_8to1_c_1080_8_alg».proof.Proof.K.Sound
import proofs.«106130_g44306882625938_cont_8to1_c_1080_8_alg».proof.Proof.KI.Value
import proofs.«106130_g44306882625938_cont_8to1_c_1080_8_alg».proof.Proof.RefValue
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Body.frame m ρ

theorem frame_ki : @Cert.frame_KernelIdeal Cert.KernelIdeal.Gen.facts Cert.Pre_finite_inputs.Gen.facts :=
  fun m ρ _ => Cert.KernelIdeal.Body.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both programs end at the layer of the (agreeing) arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.ValueAt.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v6_eq _ _ _ _).trans (Cert.ReferenceIdeal.RefValue.ref_eq_layer _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
